-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x48x48 : Shape := ⟨4, ![16, 128, 48, 48]⟩
abbrev S16x64x96x96 : Shape := ⟨4, ![16, 64, 96, 96]⟩
abbrev S16x32x192x192 : Shape := ⟨4, ![16, 32, 192, 192]⟩
abbrev S16x16x384x384 : Shape := ⟨4, ![16, 16, 384, 384]⟩
abbrev S16x256x24x24 : Shape := ⟨4, ![16, 256, 24, 24]⟩
abbrev S_ : Shape := ⟨0, ![]⟩

class Facts : Prop where
  bcast_S_S16x128x48x48 : S_.BroadcastsInDim S16x128x48x48 (![] : Fin 0 → Fin S16x128x48x48.rank)
  reducesTo_S16x128x48x48_S_d0_1_2_3 : S16x128x48x48.ReducesTo [0, 1, 2, 3] S_
  h_S_ : 0 < S_.numel
  bcast_S_S16x64x96x96 : S_.BroadcastsInDim S16x64x96x96 (![] : Fin 0 → Fin S16x64x96x96.rank)
  reducesTo_S16x64x96x96_S_d0_1_2_3 : S16x64x96x96.ReducesTo [0, 1, 2, 3] S_
  bcast_S_S16x32x192x192 : S_.BroadcastsInDim S16x32x192x192 (![] : Fin 0 → Fin S16x32x192x192.rank)
  reducesTo_S16x32x192x192_S_d0_1_2_3 : S16x32x192x192.ReducesTo [0, 1, 2, 3] S_
  bcast_S_S16x16x384x384 : S_.BroadcastsInDim S16x16x384x384 (![] : Fin 0 → Fin S16x16x384x384.rank)
  reducesTo_S16x16x384x384_S_d0_1_2_3 : S16x16x384x384.ReducesTo [0, 1, 2, 3] S_
  bcast_S_S16x256x24x24 : S_.BroadcastsInDim S16x256x24x24 (![] : Fin 0 → Fin S16x256x24x24.rank)
  reducesTo_S16x256x24x24_S_d0_1_2_3 : S16x256x24x24.ReducesTo [0, 1, 2, 3] S_

variable [Facts]

def fn_part1 {F : FTy → Type} [FloatOps F] (main_arg4 : FVec F S16x256x24x24 .f32) (main_v13 : IVec S_ 1) (main_v16 : IVec S16x16x384x384 1) : IVec S_ 1 :=
  let main_c_5 : IVec S_ 1 := constantI S_ 1 1#1
  let main_v17 : IVec S_ 1 := (fun x v => Host.reduce IntOp.andi x v reducesTo_S16x16x384x384_S_d0_1_2_3 h_S_) main_v16 main_c_5
  let main_v18 : IVec S_ 1 := andi main_v13 main_v17
  let main_v19 : FVec F S16x256x24x24 .f32 := Host.absf main_arg4
  let main_cst_6 : FVec F S_ .f32 := constant S_ .f32 0x7F800000#32
  let main_v20 : FVec F S16x256x24x24 .f32 := broadcastInDim S16x256x24x24 ![] bcast_S_S16x256x24x24 main_cst_6
  let main_v21 : IVec S16x256x24x24 1 := cmpf .olt main_v19 main_v20
  let main_c_7 : IVec S_ 1 := constantI S_ 1 1#1
  let main_v22 : IVec S_ 1 := (fun x v => Host.reduce IntOp.andi x v reducesTo_S16x256x24x24_S_d0_1_2_3 h_S_) main_v21 main_c_7
  let main_v23 : IVec S_ 1 := andi main_v18 main_v22
  main_v23

def fn {F : FTy → Type} [FloatOps F] (main_arg0 : FVec F S16x128x48x48 .f32) (main_arg1 : FVec F S16x64x96x96 .f32) (main_arg2 : FVec F S16x32x192x192 .f32) (main_arg3 : FVec F S16x16x384x384 .f32) (main_arg4 : FVec F S16x256x24x24 .f32) : IVec S_ 1 :=
  let main_v0 : FVec F S16x128x48x48 .f32 := Host.absf main_arg0
  let main_cst : FVec F S_ .f32 := constant S_ .f32 0x7F800000#32
  let main_v1 : FVec F S16x128x48x48 .f32 := broadcastInDim S16x128x48x48 ![] bcast_S_S16x128x48x48 main_cst
  let main_v2 : IVec S16x128x48x48 1 := cmpf .olt main_v0 main_v1
  let main_c : IVec S_ 1 := constantI S_ 1 1#1
  let main_v3 : IVec S_ 1 := (fun x v => Host.reduce IntOp.andi x v reducesTo_S16x128x48x48_S_d0_1_2_3 h_S_) main_v2 main_c
  let main_v4 : FVec F S16x64x96x96 .f32 := Host.absf main_arg1
  let main_cst_0 : FVec F S_ .f32 := constant S_ .f32 0x7F800000#32
  let main_v5 : FVec F S16x64x96x96 .f32 := broadcastInDim S16x64x96x96 ![] bcast_S_S16x64x96x96 main_cst_0
  let main_v6 : IVec S16x64x96x96 1 := cmpf .olt main_v4 main_v5
  let main_c_1 : IVec S_ 1 := constantI S_ 1 1#1
  let main_v7 : IVec S_ 1 := (fun x v => Host.reduce IntOp.andi x v reducesTo_S16x64x96x96_S_d0_1_2_3 h_S_) main_v6 main_c_1
  let main_v8 : IVec S_ 1 := andi main_v3 main_v7
  let main_v9 : FVec F S16x32x192x192 .f32 := Host.absf main_arg2
  let main_cst_2 : FVec F S_ .f32 := constant S_ .f32 0x7F800000#32
  let main_v10 : FVec F S16x32x192x192 .f32 := broadcastInDim S16x32x192x192 ![] bcast_S_S16x32x192x192 main_cst_2
  let main_v11 : IVec S16x32x192x192 1 := cmpf .olt main_v9 main_v10
  let main_c_3 : IVec S_ 1 := constantI S_ 1 1#1
  let main_v12 : IVec S_ 1 := (fun x v => Host.reduce IntOp.andi x v reducesTo_S16x32x192x192_S_d0_1_2_3 h_S_) main_v11 main_c_3
  let main_v13 : IVec S_ 1 := andi main_v8 main_v12
  let main_v14 : FVec F S16x16x384x384 .f32 := Host.absf main_arg3
  let main_cst_4 : FVec F S_ .f32 := constant S_ .f32 0x7F800000#32
  let main_v15 : FVec F S16x16x384x384 .f32 := broadcastInDim S16x16x384x384 ![] bcast_S_S16x16x384x384 main_cst_4
  let main_v16 : IVec S16x16x384x384 1 := cmpf .olt main_v14 main_v15
  fn_part1 (F := F) main_arg4 main_v13 main_v16
-- ==== Kernel.lean ====
abbrev S16x128x48x48 : Shape := ⟨4, ![16, 128, 48, 48]⟩
abbrev S16x64x96x96 : Shape := ⟨4, ![16, 64, 96, 96]⟩
abbrev S16x32x192x192 : Shape := ⟨4, ![16, 32, 192, 192]⟩
abbrev S16x16x384x384 : Shape := ⟨4, ![16, 16, 384, 384]⟩
abbrev S16x256x24x24 : Shape := ⟨4, ![16, 256, 24, 24]⟩
abbrev S16x128x24x24 : Shape := ⟨4, ![16, 128, 24, 24]⟩
abbrev S1x16x48x48 : Shape := ⟨4, ![1, 16, 48, 48]⟩
abbrev S1x16x24x24 : Shape := ⟨4, ![1, 16, 24, 24]⟩
abbrev S16x48x48 : Shape := ⟨3, ![16, 48, 48]⟩
abbrev S16x24x2x48 : Shape := ⟨4, ![16, 24, 2, 48]⟩
abbrev S2x16x24x48 : Shape := ⟨4, ![2, 16, 24, 48]⟩
abbrev S16x24x48 : Shape := ⟨3, ![16, 24, 48]⟩
abbrev S16x24x24x2 : Shape := ⟨4, ![16, 24, 24, 2]⟩
abbrev S2x16x24x24 : Shape := ⟨4, ![2, 16, 24, 24]⟩
abbrev S16x24x24 : Shape := ⟨3, ![16, 24, 24]⟩
abbrev S16x64x24x24 : Shape := ⟨4, ![16, 64, 24, 24]⟩
abbrev S1x8x96x96 : Shape := ⟨4, ![1, 8, 96, 96]⟩
abbrev S1x8x24x24 : Shape := ⟨4, ![1, 8, 24, 24]⟩
abbrev S8x96x96 : Shape := ⟨3, ![8, 96, 96]⟩
abbrev S8x24x4x96 : Shape := ⟨4, ![8, 24, 4, 96]⟩
abbrev S4x8x24x96 : Shape := ⟨4, ![4, 8, 24, 96]⟩
abbrev S8x24x96 : Shape := ⟨3, ![8, 24, 96]⟩
abbrev S8x24x24x4 : Shape := ⟨4, ![8, 24, 24, 4]⟩
abbrev S4x8x24x24 : Shape := ⟨4, ![4, 8, 24, 24]⟩
abbrev S8x24x24 : Shape := ⟨3, ![8, 24, 24]⟩
abbrev S16x32x24x24 : Shape := ⟨4, ![16, 32, 24, 24]⟩
abbrev S1x4x192x192 : Shape := ⟨4, ![1, 4, 192, 192]⟩
abbrev S1x4x24x24 : Shape := ⟨4, ![1, 4, 24, 24]⟩
abbrev S4x192x192 : Shape := ⟨3, ![4, 192, 192]⟩
abbrev S4x24x8x192 : Shape := ⟨4, ![4, 24, 8, 192]⟩
abbrev S8x4x24x192 : Shape := ⟨4, ![8, 4, 24, 192]⟩
abbrev S4x24x192 : Shape := ⟨3, ![4, 24, 192]⟩
abbrev S4x24x24x8 : Shape := ⟨4, ![4, 24, 24, 8]⟩
abbrev S8x4x24x24 : Shape := ⟨4, ![8, 4, 24, 24]⟩
abbrev S4x24x24 : Shape := ⟨3, ![4, 24, 24]⟩
abbrev S16x16x24x24 : Shape := ⟨4, ![16, 16, 24, 24]⟩
abbrev S1x2x384x384 : Shape := ⟨4, ![1, 2, 384, 384]⟩
abbrev S1x2x24x24 : Shape := ⟨4, ![1, 2, 24, 24]⟩
abbrev S2x384x384 : Shape := ⟨3, ![2, 384, 384]⟩
abbrev S2x24x16x384 : Shape := ⟨4, ![2, 24, 16, 384]⟩
abbrev S16x2x24x384 : Shape := ⟨4, ![16, 2, 24, 384]⟩
abbrev S2x24x384 : Shape := ⟨3, ![2, 24, 384]⟩
abbrev S2x24x24x16 : Shape := ⟨4, ![2, 24, 24, 16]⟩
abbrev S16x2x24x24 : Shape := ⟨4, ![16, 2, 24, 24]⟩
abbrev S2x24x24 : Shape := ⟨3, ![2, 24, 24]⟩
abbrev S1x128x24x24 : Shape := ⟨4, ![1, 128, 24, 24]⟩
abbrev S1x64x24x24 : Shape := ⟨4, ![1, 64, 24, 24]⟩
abbrev S1x32x24x24 : Shape := ⟨4, ![1, 32, 24, 24]⟩
abbrev S1x256x24x24 : Shape := ⟨4, ![1, 256, 24, 24]⟩
abbrev S256x24x24 : Shape := ⟨3, ![256, 24, 24]⟩
abbrev S128x24x24 : Shape := ⟨3, ![128, 24, 24]⟩
abbrev S64x24x24 : Shape := ⟨3, ![64, 24, 24]⟩
abbrev S32x24x24 : Shape := ⟨3, ![32, 24, 24]⟩

abbrev nBuf : Space → Nat
  | .hbm => 10
  | .vmem => 28
  | .smem => 0
  | _ => 0

abbrev bufTy : (tb : Table) → Fin (tcTables nBuf tb) → BufTy
  | .hbm, ⟨0, _⟩ => ⟨S16x128x48x48, .f32⟩
  | .hbm, ⟨1, _⟩ => ⟨S16x64x96x96, .f32⟩
  | .hbm, ⟨2, _⟩ => ⟨S16x32x192x192, .f32⟩
  | .hbm, ⟨3, _⟩ => ⟨S16x16x384x384, .f32⟩
  | .hbm, ⟨4, _⟩ => ⟨S16x256x24x24, .f32⟩
  | .hbm, ⟨5, _⟩ => ⟨S16x128x24x24, .f32⟩
  | .hbm, ⟨6, _⟩ => ⟨S16x64x24x24, .f32⟩
  | .hbm, ⟨7, _⟩ => ⟨S16x32x24x24, .f32⟩
  | .hbm, ⟨8, _⟩ => ⟨S16x16x24x24, .f32⟩
  | .hbm, ⟨9, _⟩ => ⟨S16x256x24x24, .f32⟩
  | .local _ .vmem, ⟨0, _⟩ => ⟨S1x16x48x48, .f32⟩
  | .local _ .vmem, ⟨1, _⟩ => ⟨S1x16x48x48, .f32⟩
  | .local _ .vmem, ⟨2, _⟩ => ⟨S1x16x24x24, .f32⟩
  | .local _ .vmem, ⟨3, _⟩ => ⟨S1x16x24x24, .f32⟩
  | .local _ .vmem, ⟨4, _⟩ => ⟨S1x8x96x96, .f32⟩
  | .local _ .vmem, ⟨5, _⟩ => ⟨S1x8x96x96, .f32⟩
  | .local _ .vmem, ⟨6, _⟩ => ⟨S1x8x24x24, .f32⟩
  | .local _ .vmem, ⟨7, _⟩ => ⟨S1x8x24x24, .f32⟩
  | .local _ .vmem, ⟨8, _⟩ => ⟨S1x4x192x192, .f32⟩
  | .local _ .vmem, ⟨9, _⟩ => ⟨S1x4x192x192, .f32⟩
  | .local _ .vmem, ⟨10, _⟩ => ⟨S1x4x24x24, .f32⟩
  | .local _ .vmem, ⟨11, _⟩ => ⟨S1x4x24x24, .f32⟩
  | .local _ .vmem, ⟨12, _⟩ => ⟨S1x2x384x384, .f32⟩
  | .local _ .vmem, ⟨13, _⟩ => ⟨S1x2x384x384, .f32⟩
  | .local _ .vmem, ⟨14, _⟩ => ⟨S1x2x24x24, .f32⟩
  | .local _ .vmem, ⟨15, _⟩ => ⟨S1x2x24x24, .f32⟩
  | .local _ .vmem, ⟨16, _⟩ => ⟨S1x128x24x24, .f32⟩
  | .local _ .vmem, ⟨17, _⟩ => ⟨S1x128x24x24, .f32⟩
  | .local _ .vmem, ⟨18, _⟩ => ⟨S1x64x24x24, .f32⟩
  | .local _ .vmem, ⟨19, _⟩ => ⟨S1x64x24x24, .f32⟩
  | .local _ .vmem, ⟨20, _⟩ => ⟨S1x32x24x24, .f32⟩
  | .local _ .vmem, ⟨21, _⟩ => ⟨S1x32x24x24, .f32⟩
  | .local _ .vmem, ⟨22, _⟩ => ⟨S1x16x24x24, .f32⟩
  | .local _ .vmem, ⟨23, _⟩ => ⟨S1x16x24x24, .f32⟩
  | .local _ .vmem, ⟨24, _⟩ => ⟨S1x256x24x24, .f32⟩
  | .local _ .vmem, ⟨25, _⟩ => ⟨S1x256x24x24, .f32⟩
  | .local _ .vmem, ⟨26, _⟩ => ⟨S1x256x24x24, .f32⟩
  | .local _ .vmem, ⟨27, _⟩ => ⟨S1x256x24x24, .f32⟩
  | _, _ => ⟨S16x128x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc4_stg2_0 : Ref sig .tc := ⟨.vmem, 20, rfl⟩
abbrev cc4_stg2_1 : Ref sig .tc := ⟨.vmem, 21, rfl⟩
abbrev cc4_stg3_0 : Ref sig .tc := ⟨.vmem, 22, rfl⟩
abbrev cc4_stg3_1 : Ref sig .tc := ⟨.vmem, 23, rfl⟩
abbrev cc4_stg4_0 : Ref sig .tc := ⟨.vmem, 24, rfl⟩
abbrev cc4_stg4_1 : Ref sig .tc := ⟨.vmem, 25, rfl⟩
abbrev cc4_stg5_0 : Ref sig .tc := ⟨.vmem, 26, rfl⟩
abbrev cc4_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15
abbrev cc4_sem0_0 : DmaSem sig := 16
abbrev cc4_sem0_1 : DmaSem sig := 17
abbrev cc4_sem1_0 : DmaSem sig := 18
abbrev cc4_sem1_1 : DmaSem sig := 19
abbrev cc4_sem2_0 : DmaSem sig := 20
abbrev cc4_sem2_1 : DmaSem sig := 21
abbrev cc4_sem3_0 : DmaSem sig := 22
abbrev cc4_sem3_1 : DmaSem sig := 23
abbrev cc4_sem4_0 : DmaSem sig := 24
abbrev cc4_sem4_1 : DmaSem sig := 25
abbrev cc4_sem5_0 : DmaSem sig := 26
abbrev cc4_sem5_1 : DmaSem sig := 27

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x48x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x24x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![16, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x8x96x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x24x24 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![16, 8], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x4x192x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x4x24x24 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev grid3 : Pipeline.Grid := ⟨2, ![16, 8], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x2x384x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2x24x24 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev grid4 : Pipeline.Grid := ⟨1, ![16], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_2 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_3 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_4 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_5 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage4_0 : Fin 2 → Memref sig .tc .vmem S1x128x24x24 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x64x24x24 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x32x24x24 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x16x24x24 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x256x24x24 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x256x24x24 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  inb_S1x16x48x48_S1x16x48x48_0_0_0_0 : ∀ a, (![0, 0, 0, 0] : Fin 4 → Nat) a + S1x16x48x48.size a ≤ S1x16x48x48.size a
  h_S1x16x48x48 : 0 < S1x16x48x48.numel
  shapeCasts_S1x16x48x48_S16x48x48 : S1x16x48x48.ShapeCasts S16x48x48
  shapeCasts_S16x48x48_S16x24x2x48 : S16x48x48.ShapeCasts S16x24x2x48
  transposes_S16x24x2x48_p2_0_1_3_S2x16x24x48 : S16x24x2x48.Transposes [2, 0, 1, 3] S2x16x24x48
  reduces_S2x16x24x48_S16x24x48 : S2x16x24x48.Reduces [0] S16x24x48
  shapeCasts_S16x24x48_S16x24x24x2 : S16x24x48.ShapeCasts S16x24x24x2
  transposes_S16x24x24x2_p3_0_1_2_S2x16x24x24 : S16x24x24x2.Transposes [3, 0, 1, 2] S2x16x24x24
  reduces_S2x16x24x24_S16x24x24 : S2x16x24x24.Reduces [0] S16x24x24
  inb_S1x16x24x24_S1x16x24x24_0_0_0_0 : ∀ a, (![0, 0, 0, 0] : Fin 4 → Nat) a + S1x16x24x24.size a ≤ S1x16x24x24.size a
  h_S1x16x24x24 : 0 < S1x16x24x24.numel
  shapeCasts_S1x16x24x24_S16x24x24 : S1x16x24x24.ShapeCasts S16x24x24
  shapeCasts_S16x24x24_S1x16x24x24 : S16x24x24.ShapeCasts S1x16x24x24
  inb_S1x8x96x96_S1x8x96x96_0_0_0_0 : ∀ a, (![0, 0, 0, 0] : Fin 4 → Nat) a + S1x8x96x96.size a ≤ S1x8x96x96.size a
  h_S1x8x96x96 : 0 < S1x8x96x96.numel
  shapeCasts_S1x8x96x96_S8x96x96 : S1x8x96x96.ShapeCasts S8x96x96
  shapeCasts_S8x96x96_S8x24x4x96 : S8x96x96.ShapeCasts S8x24x4x96
  transposes_S8x24x4x96_p2_0_1_3_S4x8x24x96 : S8x24x4x96.Transposes [2, 0, 1, 3] S4x8x24x96
  reduces_S4x8x24x96_S8x24x96 : S4x8x24x96.Reduces [0] S8x24x96
  shapeCasts_S8x24x96_S8x24x24x4 : S8x24x96.ShapeCasts S8x24x24x4
  transposes_S8x24x24x4_p3_0_1_2_S4x8x24x24 : S8x24x24x4.Transposes [3, 0, 1, 2] S4x8x24x24
  reduces_S4x8x24x24_S8x24x24 : S4x8x24x24.Reduces [0] S8x24x24
  inb_S1x8x24x24_S1x8x24x24_0_0_0_0 : ∀ a, (![0, 0, 0, 0] : Fin 4 → Nat) a + S1x8x24x24.size a ≤ S1x8x24x24.size a
  h_S1x8x24x24 : 0 < S1x8x24x24.numel
  shapeCasts_S1x8x24x24_S8x24x24 : S1x8x24x24.ShapeCasts S8x24x24
  shapeCasts_S8x24x24_S1x8x24x24 : S8x24x24.ShapeCasts S1x8x24x24
  inb_S1x4x192x192_S1x4x192x192_0_0_0_0 : ∀ a, (![0, 0, 0, 0] : Fin 4 → Nat) a + S1x4x192x192.size a ≤ S1x4x192x192.size a
  h_S1x4x192x192 : 0 < S1x4x192x192.numel
  shapeCasts_S1x4x192x192_S4x192x192 : S1x4x192x192.ShapeCasts S4x192x192
  shapeCasts_S4x192x192_S4x24x8x192 : S4x192x192.ShapeCasts S4x24x8x192
  transposes_S4x24x8x192_p2_0_1_3_S8x4x24x192 : S4x24x8x192.Transposes [2, 0, 1, 3] S8x4x24x192
  reduces_S8x4x24x192_S4x24x192 : S8x4x24x192.Reduces [0] S4x24x192
  shapeCasts_S4x24x192_S4x24x24x8 : S4x24x192.ShapeCasts S4x24x24x8
  transposes_S4x24x24x8_p3_0_1_2_S8x4x24x24 : S4x24x24x8.Transposes [3, 0, 1, 2] S8x4x24x24
  reduces_S8x4x24x24_S4x24x24 : S8x4x24x24.Reduces [0] S4x24x24
  inb_S1x4x24x24_S1x4x24x24_0_0_0_0 : ∀ a, (![0, 0, 0, 0] : Fin 4 → Nat) a + S1x4x24x24.size a ≤ S1x4x24x24.size a
  h_S1x4x24x24 : 0 < S1x4x24x24.numel
  shapeCasts_S1x4x24x24_S4x24x24 : S1x4x24x24.ShapeCasts S4x24x24
  shapeCasts_S4x24x24_S1x4x24x24 : S4x24x24.ShapeCasts S1x4x24x24
  inb_S1x2x384x384_S1x2x384x384_0_0_0_0 : ∀ a, (![0, 0, 0, 0] : Fin 4 → Nat) a + S1x2x384x384.size a ≤ S1x2x384x384.size a
  h_S1x2x384x384 : 0 < S1x2x384x384.numel
  shapeCasts_S1x2x384x384_S2x384x384 : S1x2x384x384.ShapeCasts S2x384x384
  shapeCasts_S2x384x384_S2x24x16x384 : S2x384x384.ShapeCasts S2x24x16x384
  transposes_S2x24x16x384_p2_0_1_3_S16x2x24x384 : S2x24x16x384.Transposes [2, 0, 1, 3] S16x2x24x384
  reduces_S16x2x24x384_S2x24x384 : S16x2x24x384.Reduces [0] S2x24x384
  shapeCasts_S2x24x384_S2x24x24x16 : S2x24x384.ShapeCasts S2x24x24x16
  transposes_S2x24x24x16_p3_0_1_2_S16x2x24x24 : S2x24x24x16.Transposes [3, 0, 1, 2] S16x2x24x24
  reduces_S16x2x24x24_S2x24x24 : S16x2x24x24.Reduces [0] S2x24x24
  inb_S1x2x24x24_S1x2x24x24_0_0_0_0 : ∀ a, (![0, 0, 0, 0] : Fin 4 → Nat) a + S1x2x24x24.size a ≤ S1x2x24x24.size a
  h_S1x2x24x24 : 0 < S1x2x24x24.numel
  shapeCasts_S1x2x24x24_S2x24x24 : S1x2x24x24.ShapeCasts S2x24x24
  shapeCasts_S2x24x24_S1x2x24x24 : S2x24x24.ShapeCasts S1x2x24x24
  inb_S1x256x24x24_S1x256x24x24_0_0_0_0 : ∀ a, (![0, 0, 0, 0] : Fin 4 → Nat) a + S1x256x24x24.size a ≤ S1x256x24x24.size a
  h_S1x256x24x24 : 0 < S1x256x24x24.numel
  shapeCasts_S1x256x24x24_S256x24x24 : S1x256x24x24.ShapeCasts S256x24x24
  inb_S1x128x24x24_S1x128x24x24_0_0_0_0 : ∀ a, (![0, 0, 0, 0] : Fin 4 → Nat) a + S1x128x24x24.size a ≤ S1x128x24x24.size a
  h_S1x128x24x24 : 0 < S1x128x24x24.numel
  shapeCasts_S1x128x24x24_S128x24x24 : S1x128x24x24.ShapeCasts S128x24x24
  concatenates_S128x24x24_S128x24x24_S256x24x24_d0 : Shape.Concatenates [S128x24x24, S128x24x24] S256x24x24 0
  inb_S1x64x24x24_S1x64x24x24_0_0_0_0 : ∀ a, (![0, 0, 0, 0] : Fin 4 → Nat) a + S1x64x24x24.size a ≤ S1x64x24x24.size a
  h_S1x64x24x24 : 0 < S1x64x24x24.numel
  shapeCasts_S1x64x24x24_S64x24x24 : S1x64x24x24.ShapeCasts S64x24x24
  concatenates_S64x24x24_S64x24x24_S64x24x24_S64x24x24_S256x24x24_d0 : Shape.Concatenates [S64x24x24, S64x24x24, S64x24x24, S64x24x24] S256x24x24 0
  inb_S1x32x24x24_S1x32x24x24_0_0_0_0 : ∀ a, (![0, 0, 0, 0] : Fin 4 → Nat) a + S1x32x24x24.size a ≤ S1x32x24x24.size a
  h_S1x32x24x24 : 0 < S1x32x24x24.numel
  shapeCasts_S1x32x24x24_S32x24x24 : S1x32x24x24.ShapeCasts S32x24x24
  concatenates_S32x24x24_S32x24x24_S32x24x24_S32x24x24_S32x24x24_S32x24x24_S32x24x24_S32x24x24_S256x24x24_d0 : Shape.Concatenates [S32x24x24, S32x24x24, S32x24x24, S32x24x24, S32x24x24, S32x24x24, S32x24x24, S32x24x24] S256x24x24 0
  concatenates_S16x24x24_S16x24x24_S16x24x24_S16x24x24_S16x24x24_S16x24x24_S16x24x24_S16x24x24_S16x24x24_S16x24x24_S16x24x24_S16x24x24_S16x24x24_S16x24x24_S16x24x24_S16x24x24_S256x24x24_d0 : Shape.Concatenates [S16x24x24, S16x24x24, S16x24x24, S16x24x24, S16x24x24, S16x24x24, S16x24x24, S16x24x24, S16x24x24, S16x24x24, S16x24x24, S16x24x24, S16x24x24, S16x24x24, S16x24x24, S16x24x24] S256x24x24 0
  shapeCasts_S256x24x24_S1x256x24x24 : S256x24x24.ShapeCasts S1x256x24x24
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x48x48.size a ≤ S16x128x48x48.size a
  hwx0_0 : ∀ i : grid0.Coords, EltTy.bits .f32 = 32 ∨ (Rect.block (s := S16x128x48x48) S1x16x48x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x24x24.size a ≤ S16x128x24x24.size a
  hwx0_1 : ∀ i : grid0.Coords, EltTy.bits .f32 = 32 ∨ (Rect.block (s := S16x128x24x24) S1x16x24x24.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x96x96.size a ≤ S16x64x96x96.size a
  hwx1_0 : ∀ i : grid1.Coords, EltTy.bits .f32 = 32 ∨ (Rect.block (s := S16x64x96x96) S1x8x96x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x24x24.size a ≤ S16x64x24x24.size a
  hwx1_1 : ∀ i : grid1.Coords, EltTy.bits .f32 = 32 ∨ (Rect.block (s := S16x64x24x24) S1x8x24x24.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x4x192x192.size a ≤ S16x32x192x192.size a
  hwx2_0 : ∀ i : grid2.Coords, EltTy.bits .f32 = 32 ∨ (Rect.block (s := S16x32x192x192) S1x4x192x192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x4x24x24.size a ≤ S16x32x24x24.size a
  hwx2_1 : ∀ i : grid2.Coords, EltTy.bits .f32 = 32 ∨ (Rect.block (s := S16x32x24x24) S1x4x24x24.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2x384x384.size a ≤ S16x16x384x384.size a
  hwx3_0 : ∀ i : grid3.Coords, EltTy.bits .f32 = 32 ∨ (Rect.block (s := S16x16x384x384) S1x2x384x384.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x2x24x24.size a ≤ S16x16x24x24.size a
  hwx3_1 : ∀ i : grid3.Coords, EltTy.bits .f32 = 32 ∨ (Rect.block (s := S16x16x24x24) S1x2x24x24.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x128x24x24.size a ≤ S16x128x24x24.size a
  hwx4_0 : ∀ i : grid4.Coords, EltTy.bits .f32 = 32 ∨ (Rect.block (s := S16x128x24x24) S1x128x24x24.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x64x24x24.size a ≤ S16x64x24x24.size a
  hwx4_1 : ∀ i : grid4.Coords, EltTy.bits .f32 = 32 ∨ (Rect.block (s := S16x64x24x24) S1x64x24x24.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x32x24x24.size a ≤ S16x32x24x24.size a
  hwx4_2 : ∀ i : grid4.Coords, EltTy.bits .f32 = 32 ∨ (Rect.block (s := S16x32x24x24) S1x32x24x24.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x16x24x24.size a ≤ S16x16x24x24.size a
  hwx4_3 : ∀ i : grid4.Coords, EltTy.bits .f32 = 32 ∨ (Rect.block (s := S16x16x24x24) S1x16x24x24.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x256x24x24.size a ≤ S16x256x24x24.size a
  hwx4_4 : ∀ i : grid4.Coords, EltTy.bits .f32 = 32 ∨ (Rect.block (s := S16x256x24x24) S1x256x24x24.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x256x24x24.size a ≤ S16x256x24x24.size a
  hwx4_5 : ∀ i : grid4.Coords, EltTy.bits .f32 = 32 ∨ (Rect.block (s := S16x256x24x24) S1x256x24x24.size (cc4_transform_5 i) (hinb4_5 i)).WholeWords (EltTy.packing .f32)

variable [Facts₀]

abbrev win0_0 : Pipeline.Window sig grid0 :=
  Pipeline.Window.ofSpec (Memref.whole main_arg0) S1x16x48x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x24x24.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1x8x96x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x8x24x24.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg2) S1x4x192x192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x4x24x24.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg3) S1x2x384x384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1x2x24x24.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v0) S1x128x24x24.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S1x64x24x24.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v2) S1x32x24x24.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v3) S1x16x24x24.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg4) S1x256x24x24.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v4) S1x256x24x24.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S16x128x48x48 : Shape := ⟨4, ![16, 128, 48, 48]⟩
abbrev S16x64x96x96 : Shape := ⟨4, ![16, 64, 96, 96]⟩
abbrev S16x32x192x192 : Shape := ⟨4, ![16, 32, 192, 192]⟩
abbrev S16x16x384x384 : Shape := ⟨4, ![16, 16, 384, 384]⟩
abbrev S16x256x24x24 : Shape := ⟨4, ![16, 256, 24, 24]⟩
abbrev S_ : Shape := ⟨0, ![]⟩
abbrev S16x128x24x24 : Shape := ⟨4, ![16, 128, 24, 24]⟩
abbrev S1x16x1x128x1x24x1x24 : Shape := ⟨8, ![1, 16, 1, 128, 1, 24, 1, 24]⟩
abbrev S1x16x2x128x1x24x1x24 : Shape := ⟨8, ![1, 16, 2, 128, 1, 24, 1, 24]⟩
abbrev S16x64x24x24 : Shape := ⟨4, ![16, 64, 24, 24]⟩
abbrev S1x16x1x64x1x24x1x24 : Shape := ⟨8, ![1, 16, 1, 64, 1, 24, 1, 24]⟩
abbrev S1x16x4x64x1x24x1x24 : Shape := ⟨8, ![1, 16, 4, 64, 1, 24, 1, 24]⟩
abbrev S16x32x24x24 : Shape := ⟨4, ![16, 32, 24, 24]⟩
abbrev S1x16x1x32x1x24x1x24 : Shape := ⟨8, ![1, 16, 1, 32, 1, 24, 1, 24]⟩
abbrev S1x16x8x32x1x24x1x24 : Shape := ⟨8, ![1, 16, 8, 32, 1, 24, 1, 24]⟩
abbrev S16x16x24x24 : Shape := ⟨4, ![16, 16, 24, 24]⟩
abbrev S1x16x1x16x1x24x1x24 : Shape := ⟨8, ![1, 16, 1, 16, 1, 24, 1, 24]⟩
abbrev S1x16x16x16x1x24x1x24 : Shape := ⟨8, ![1, 16, 16, 16, 1, 24, 1, 24]⟩

abbrev nBuf : Space → Nat
  | .hbm => 36
  | .vmem => 0
  | .smem => 0
  | _ => 0

abbrev bufTy : (tb : Table) → Fin (tcTables nBuf tb) → BufTy
  | .hbm, ⟨0, _⟩ => ⟨S16x128x48x48, .f32⟩
  | .hbm, ⟨1, _⟩ => ⟨S16x64x96x96, .f32⟩
  | .hbm, ⟨2, _⟩ => ⟨S16x32x192x192, .f32⟩
  | .hbm, ⟨3, _⟩ => ⟨S16x16x384x384, .f32⟩
  | .hbm, ⟨4, _⟩ => ⟨S16x256x24x24, .f32⟩
  | .hbm, ⟨5, _⟩ => ⟨S_, .f32⟩
  | .hbm, ⟨6, _⟩ => ⟨S_, .f32⟩
  | .hbm, ⟨7, _⟩ => ⟨S16x128x24x24, .f32⟩
  | .hbm, ⟨8, _⟩ => ⟨S1x16x1x128x1x24x1x24, .f32⟩
  | .hbm, ⟨9, _⟩ => ⟨S1x16x2x128x1x24x1x24, .f32⟩
  | .hbm, ⟨10, _⟩ => ⟨S16x256x24x24, .f32⟩
  | .hbm, ⟨11, _⟩ => ⟨S_, .f32⟩
  | .hbm, ⟨12, _⟩ => ⟨S_, .f32⟩
  | .hbm, ⟨13, _⟩ => ⟨S16x64x24x24, .f32⟩
  | .hbm, ⟨14, _⟩ => ⟨S1x16x1x64x1x24x1x24, .f32⟩
  | .hbm, ⟨15, _⟩ => ⟨S1x16x4x64x1x24x1x24, .f32⟩
  | .hbm, ⟨16, _⟩ => ⟨S16x256x24x24, .f32⟩
  | .hbm, ⟨17, _⟩ => ⟨S_, .f32⟩
  | .hbm, ⟨18, _⟩ => ⟨S_, .f32⟩
  | .hbm, ⟨19, _⟩ => ⟨S16x32x24x24, .f32⟩
  | .hbm, ⟨20, _⟩ => ⟨S1x16x1x32x1x24x1x24, .f32⟩
  | .hbm, ⟨21, _⟩ => ⟨S1x16x8x32x1x24x1x24, .f32⟩
  | .hbm, ⟨22, _⟩ => ⟨S16x256x24x24, .f32⟩
  | .hbm, ⟨23, _⟩ => ⟨S_, .f32⟩
  | .hbm, ⟨24, _⟩ => ⟨S_, .f32⟩
  | .hbm, ⟨25, _⟩ => ⟨S16x16x24x24, .f32⟩
  | .hbm, ⟨26, _⟩ => ⟨S1x16x1x16x1x24x1x24, .f32⟩
  | .hbm, ⟨27, _⟩ => ⟨S1x16x16x16x1x24x1x24, .f32⟩
  | .hbm, ⟨28, _⟩ => ⟨S16x256x24x24, .f32⟩
  | .hbm, ⟨29, _⟩ => ⟨S16x256x24x24, .f32⟩
  | .hbm, ⟨30, _⟩ => ⟨S16x256x24x24, .f32⟩
  | .hbm, ⟨31, _⟩ => ⟨S16x256x24x24, .f32⟩
  | .hbm, ⟨32, _⟩ => ⟨S16x256x24x24, .f32⟩
  | .hbm, ⟨33, _⟩ => ⟨S_, .f32⟩
  | .hbm, ⟨34, _⟩ => ⟨S16x256x24x24, .f32⟩
  | .hbm, ⟨35, _⟩ => ⟨S16x256x24x24, .f32⟩
  | _, _ => ⟨S16x128x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_cst : Ref sig .tc := ⟨.hbm, 33, rfl⟩
abbrev main_call0_v0 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x128x48x48_S16x128x24x24_w1s1p0_0_w1s1p0_0_w2s2p0_0_w2s2p0_0 : S16x128x48x48.ReduceWindows (![1, 1, 2, 2] : Fin 4 → Nat) ![1, 1, 2, 2] ![0, 0, 0, 0] ![0, 0, 0, 0] S16x128x24x24
  h_S_ : 0 < S_.numel
  shapeCasts_S16x128x24x24_S1x16x1x128x1x24x1x24 : S16x128x24x24.ShapeCasts S1x16x1x128x1x24x1x24
  bcast_S1x16x1x128x1x24x1x24_S1x16x2x128x1x24x1x24_0_1_2_3_4_5_6_7 : S1x16x1x128x1x24x1x24.BroadcastsInDim S1x16x2x128x1x24x1x24 (![0, 1, 2, 3, 4, 5, 6, 7] : Fin 8 → Fin S1x16x2x128x1x24x1x24.rank)
  shapeCasts_S1x16x2x128x1x24x1x24_S16x256x24x24 : S1x16x2x128x1x24x1x24.ShapeCasts S16x256x24x24
  reduceWindows_S16x64x96x96_S16x64x24x24_w1s1p0_0_w1s1p0_0_w4s4p0_0_w4s4p0_0 : S16x64x96x96.ReduceWindows (![1, 1, 4, 4] : Fin 4 → Nat) ![1, 1, 4, 4] ![0, 0, 0, 0] ![0, 0, 0, 0] S16x64x24x24
  shapeCasts_S16x64x24x24_S1x16x1x64x1x24x1x24 : S16x64x24x24.ShapeCasts S1x16x1x64x1x24x1x24
  bcast_S1x16x1x64x1x24x1x24_S1x16x4x64x1x24x1x24_0_1_2_3_4_5_6_7 : S1x16x1x64x1x24x1x24.BroadcastsInDim S1x16x4x64x1x24x1x24 (![0, 1, 2, 3, 4, 5, 6, 7] : Fin 8 → Fin S1x16x4x64x1x24x1x24.rank)
  shapeCasts_S1x16x4x64x1x24x1x24_S16x256x24x24 : S1x16x4x64x1x24x1x24.ShapeCasts S16x256x24x24
  reduceWindows_S16x32x192x192_S16x32x24x24_w1s1p0_0_w1s1p0_0_w8s8p0_0_w8s8p0_0 : S16x32x192x192.ReduceWindows (![1, 1, 8, 8] : Fin 4 → Nat) ![1, 1, 8, 8] ![0, 0, 0, 0] ![0, 0, 0, 0] S16x32x24x24
  shapeCasts_S16x32x24x24_S1x16x1x32x1x24x1x24 : S16x32x24x24.ShapeCasts S1x16x1x32x1x24x1x24
  bcast_S1x16x1x32x1x24x1x24_S1x16x8x32x1x24x1x24_0_1_2_3_4_5_6_7 : S1x16x1x32x1x24x1x24.BroadcastsInDim S1x16x8x32x1x24x1x24 (![0, 1, 2, 3, 4, 5, 6, 7] : Fin 8 → Fin S1x16x8x32x1x24x1x24.rank)
  shapeCasts_S1x16x8x32x1x24x1x24_S16x256x24x24 : S1x16x8x32x1x24x1x24.ShapeCasts S16x256x24x24
  reduceWindows_S16x16x384x384_S16x16x24x24_w1s1p0_0_w1s1p0_0_w16s16p0_0_w16s16p0_0 : S16x16x384x384.ReduceWindows (![1, 1, 16, 16] : Fin 4 → Nat) ![1, 1, 16, 16] ![0, 0, 0, 0] ![0, 0, 0, 0] S16x16x24x24
  shapeCasts_S16x16x24x24_S1x16x1x16x1x24x1x24 : S16x16x24x24.ShapeCasts S1x16x1x16x1x24x1x24
  bcast_S1x16x1x16x1x24x1x24_S1x16x16x16x1x24x1x24_0_1_2_3_4_5_6_7 : S1x16x1x16x1x24x1x24.BroadcastsInDim S1x16x16x16x1x24x1x24 (![0, 1, 2, 3, 4, 5, 6, 7] : Fin 8 → Fin S1x16x16x16x1x24x1x24.rank)
  shapeCasts_S1x16x16x16x1x24x1x24_S16x256x24x24 : S1x16x16x16x1x24x1x24.ShapeCasts S16x256x24x24
  bcast_S_S16x256x24x24 : S_.BroadcastsInDim S16x256x24x24 (![] : Fin 0 → Fin S16x256x24x24.rank)

variable [Facts₀]

class Facts : Prop extends Facts₀ where

variable [Facts]
-- ==== Proof.Spec.lean ====
/-
  The specification: what the program computes, as functions of whole arrays on the extended reals.

  For k = 2, 4, 8, 16 the k×k window maximum of a [16, C, 24k, 24k] array (C = 128, 64, 32, 16) is the [16, C, 24, 24]
  array whose entry (b, ch, o, p) is the supremum of the input over the rows k·o … k·o + k − 1 and the columns
  k·p … k·p + k − 1 of image (b, ch). The result is, at (b, ch, y, x) with ch below 256, the maximum with zero of the
  feed-forward entry plus the four pooled entries at the channels ch mod 128, ch mod 64, ch mod 32, ch mod 16.
-/
import Idealize.ShloMosaic.PureOps.Ideal
import Idealize.ShloMosaic.Lib.ValueIdx

noncomputable section

namespace Cert.Spec

open Idealize.ShloMosaic Idealize.ShloMosaic.ValueIdx

/-- The supremum of the 2×2 window of a [16, 128, 48, 48] array at output position `(b, ch, o, p)`. -/
def windowMaxAt0 (X : (⟨4, ![16, 128, 48, 48]⟩ : Shape).Idx → EReal) (b : Fin 16) (ch : Fin 128) (o p : Fin 24) : EReal :=
  ⨆ (kw : Fin 2) (kh : Fin 2), X (ix4 b ch ⟨o.val * 2 + kh.val, by omega⟩ ⟨p.val * 2 + kw.val, by omega⟩)

/-- The 2×2 pooled array: every entry the supremum of its window. -/
def windowMax0 (X : (⟨4, ![16, 128, 48, 48]⟩ : Shape).Idx → EReal) : (⟨4, ![16, 128, 24, 24]⟩ : Shape).Idx → EReal :=
  fun i => windowMaxAt0 X (i 0) (i 1) (i 2) (i 3)

/-- The supremum of the 4×4 window of a [16, 64, 96, 96] array at output position `(b, ch, o, p)`. -/
def windowMaxAt1 (X : (⟨4, ![16, 64, 96, 96]⟩ : Shape).Idx → EReal) (b : Fin 16) (ch : Fin 64) (o p : Fin 24) : EReal :=
  ⨆ (kw : Fin 4) (kh : Fin 4), X (ix4 b ch ⟨o.val * 4 + kh.val, by omega⟩ ⟨p.val * 4 + kw.val, by omega⟩)

/-- The 4×4 pooled array: every entry the supremum of its window. -/
def windowMax1 (X : (⟨4, ![16, 64, 96, 96]⟩ : Shape).Idx → EReal) : (⟨4, ![16, 64, 24, 24]⟩ : Shape).Idx → EReal :=
  fun i => windowMaxAt1 X (i 0) (i 1) (i 2) (i 3)

/-- The supremum of the 8×8 window of a [16, 32, 192, 192] array at output position `(b, ch, o, p)`. -/
def windowMaxAt2 (X : (⟨4, ![16, 32, 192, 192]⟩ : Shape).Idx → EReal) (b : Fin 16) (ch : Fin 32) (o p : Fin 24) : EReal :=
  ⨆ (kw : Fin 8) (kh : Fin 8), X (ix4 b ch ⟨o.val * 8 + kh.val, by omega⟩ ⟨p.val * 8 + kw.val, by omega⟩)

/-- The 8×8 pooled array: every entry the supremum of its window. -/
def windowMax2 (X : (⟨4, ![16, 32, 192, 192]⟩ : Shape).Idx → EReal) : (⟨4, ![16, 32, 24, 24]⟩ : Shape).Idx → EReal :=
  fun i => windowMaxAt2 X (i 0) (i 1) (i 2) (i 3)

/-- The supremum of the 16×16 window of a [16, 16, 384, 384] array at output position `(b, ch, o, p)`. -/
def windowMaxAt3 (X : (⟨4, ![16, 16, 384, 384]⟩ : Shape).Idx → EReal) (b : Fin 16) (ch : Fin 16) (o p : Fin 24) : EReal :=
  ⨆ (kw : Fin 16) (kh : Fin 16), X (ix4 b ch ⟨o.val * 16 + kh.val, by omega⟩ ⟨p.val * 16 + kw.val, by omega⟩)

/-- The 16×16 pooled array: every entry the supremum of its window. -/
def windowMax3 (X : (⟨4, ![16, 16, 384, 384]⟩ : Shape).Idx → EReal) : (⟨4, ![16, 16, 24, 24]⟩ : Shape).Idx → EReal :=
  fun i => windowMaxAt3 X (i 0) (i 1) (i 2) (i 3)

/-- The result's entry `(b, ch, y, x)`: the maximum with the zero word of the feed-forward entry plus the four pooled
    entries at the channels `ch mod 128`, `ch mod 64`, `ch mod 32`, `ch mod 16`, added in this order. -/
def combineAt (P1 : (⟨4, ![16, 128, 24, 24]⟩ : Shape).Idx → EReal) (P2 : (⟨4, ![16, 64, 24, 24]⟩ : Shape).Idx → EReal)
    (P3 : (⟨4, ![16, 32, 24, 24]⟩ : Shape).Idx → EReal) (P4 : (⟨4, ![16, 16, 24, 24]⟩ : Shape).Idx → EReal)
    (FF : (⟨4, ![16, 256, 24, 24]⟩ : Shape).Idx → EReal) (b : Fin 16) (ch : Fin 256) (y x : Fin 24) : EReal :=
  max ((((FF (ix4 b ch y x) + P1 (ix4 b (⟨ch.val % 128, Nat.mod_lt _ (by decide)⟩ : Fin 128) y x)) + P2 (ix4 b (⟨ch.val % 64, Nat.mod_lt _ (by decide)⟩ : Fin 64) y x))
    + P3 (ix4 b (⟨ch.val % 32, Nat.mod_lt _ (by decide)⟩ : Fin 32) y x)) + P4 (ix4 b (⟨ch.val % 16, Nat.mod_lt _ (by decide)⟩ : Fin 16) y x)) (Ideal.ofBits .f32 0x00000000#32)

/-- The result array. -/
def combine (P1 : (⟨4, ![16, 128, 24, 24]⟩ : Shape).Idx → EReal) (P2 : (⟨4, ![16, 64, 24, 24]⟩ : Shape).Idx → EReal)
    (P3 : (⟨4, ![16, 32, 24, 24]⟩ : Shape).Idx → EReal) (P4 : (⟨4, ![16, 16, 24, 24]⟩ : Shape).Idx → EReal)
    (FF : (⟨4, ![16, 256, 24, 24]⟩ : Shape).Idx → EReal) : (⟨4, ![16, 256, 24, 24]⟩ : Shape).Idx → EReal :=
  fun i => combineAt P1 P2 P3 P4 FF (i 0) (i 1) (i 2) (i 3)

end Cert.Spec

end
-- ==== Proof.LibMaxFold.lean ====
/-
  Maxima as suprema on the extended reals.

  A fold of `max` that starts from the bottom element — over all of a finite type, or along the list of all
  positions `0 … n-1` — is the supremum of the values met, because both are characterised by the same upper bounds:
  the fold lies under `C` exactly when its start and every value it meets do. The f32 word of minus infinity is that
  bottom element. A `maximumf` reduction of a rank-4 array along its LEADING axis, accumulated from minus infinity,
  read at the remaining three coordinates, is therefore the supremum over the leading coordinate.
-/
import Idealize.ShloMosaic.PureOps.Ideal.Laws
import Idealize.ShloMosaic.Lib.ValueIdx

noncomputable section

namespace Cert.LibMaxFold

open Idealize.ShloMosaic Idealize.ShloMosaic.ValueIdx

/-- The f32 word `0xFF800000` (minus infinity) is the bottom of the extended reals. -/
theorem ofBits_neg_inf : Ideal.ofBits .f32 0xFF800000#32 = (⊥ : EReal) := by
  simp [Ideal.ofBits, Ideal.ieee]

/-- The f32 zero word is the extended real zero. -/
theorem ofBits_zero : Ideal.ofBits .f32 0x00000000#32 = (0 : EReal) := Ideal.ofBits_zero_f32

/-- A left fold of `max` along a list lies under `C` exactly when its start and every value it meets do. -/
theorem foldl_max_le_iff {ι : Type*} (g : ι → EReal) (C : EReal) (l : List ι) (v : EReal) :
    l.foldl (fun r n => max r (g n)) v ≤ C ↔ v ≤ C ∧ ∀ n ∈ l, g n ≤ C := by
  induction l generalizing v with
  | nil => simp
  | cons a l ih =>
    rw [List.foldl_cons, ih]
    simp only [max_le_iff, List.mem_cons, forall_eq_or_imp]
    exact and_assoc

/-- A left fold of `max` from the bottom along all positions `0 … n-1` is the supremum over them. -/
theorem foldl_finRange_max_bot {n : Nat} (g : Fin n → EReal) :
    (List.finRange n).foldl (fun r i => max r (g i)) ⊥ = ⨆ i, g i := by
  refine eq_of_forall_ge_iff fun C => ?_
  rw [foldl_max_le_iff, iSup_le_iff]
  simp [List.mem_finRange]

/-- A fold of `max` from the bottom over all of a finite type is the supremum over it. -/
theorem fold_max_bot {ι : Type*} [Fintype ι] (f : ι → EReal) :
    (Finset.univ : Finset ι).fold max ⊥ f = ⨆ i, f i := by
  refine eq_of_forall_ge_iff fun C => ?_
  rw [Finset.fold_max_le, iSup_le_iff]
  simp

/-- The same from any start value that is the bottom. -/
theorem fold_max_of_bot {ι : Type*} [Fintype ι] (f : ι → EReal) (v : EReal) (hv : v = ⊥) :
    (Finset.univ : Finset ι).fold max v f = ⨆ i, f i := by
  subst hv; exact fold_max_bot f

/-- A `maximumf` reduction of a `[K, A, B, C]` array along its leading axis, accumulated from minus infinity, read
    at `(a, b, c)`: the supremum over `k` of the array at `(k, a, b, c)`. -/
theorem multiReduction_maximumf_lead4 {K A B C : Nat} (src : FVec Ideal (⟨4, ![K, A, B, C]⟩ : Shape) .f32)
    (h : Shape.Reduces (⟨4, ![K, A, B, C]⟩ : Shape) [0] ⟨3, ![A, B, C]⟩) (hφ : FKind.Formats .f32)
    (hacc : (0xFF800000#32 : BitVec 32) = FKind.maximumf.neutral .f32 hφ) (a : Fin A) (b : Fin B) (c : Fin C) :
    multiReduction .maximumf [0] ⟨3, ![A, B, C]⟩ src 0xFF800000#32 h hφ hacc (ix3 a b c)
      = ⨆ k : Fin K, src (ix4 k a b c) := by
  rw [Ideal.multiReduction_maximumf_single]
  refine (fold_max_of_bot _ _ ofBits_neg_inf).trans ?_
  show (⨆ k : Fin K, src (h.lift (ix3 a b c) k)) = _
  refine iSup_congr fun k => congrArg src (funext fun d => Fin.ext ?_)
  match d with
  | ⟨0, _⟩ => rfl
  | ⟨1, _⟩ => rfl
  | ⟨2, _⟩ => rfl
  | ⟨3, _⟩ => rfl

end Cert.LibMaxFold

end
-- ==== Proof.Pool0.lean ====
/-
  Pooling region 0: the 2×2 window maximum of a [16, 128, 48, 48] array.

  At a grid point (batch b, channel group g) the body sees 16 channels of one batch element. It splits the rows
  48 = 24·2 into (24, 2), brings the 2 to the front and takes the maximum over it from minus infinity; then
  does the same with the columns. So the entry (c, o, p) it stores is the supremum, over kw and kh below 2, of the
  block at (c, 2·o + kh, 2·p + kw): the supremum of the 2×2 window. The output blocks are the
  [1, 16, 24, 24] tiles of the [16, 128, 24, 24] array, one per grid point, and every entry of that array lies in
  exactly the tile of its batch and channel group; hence after the region the whole array is the window maximum of
  the region's input array.
-/
import proofs.«171771_j88167088652743_2_alg».proof.Proof.Gen.KernelIdeal.Frame
import proofs.«171771_j88167088652743_2_alg».proof.Proof.LibMaxFold
import Idealize.ShloMosaic.Lib.Pipeline.Value
import Idealize.ShloMosaic.Lib.ValueIdx
import proofs.«171771_j88167088652743_2_alg».proof.Proof.Spec

set_option maxRecDepth 16384

noncomputable section

namespace Cert.KernelIdeal.Pool0

open Cert.KernelIdeal Cert.KernelIdeal.Gen Idealize.ShloMosaic Idealize.ShloMosaic.TcCoe Idealize.SL.Sem
open Idealize.ShloMosaic.ValueIdx
open Idealize.ShloMosaic.Pipeline (Dat)
open Cert.LibMaxFold

/-! ## What the body stores, at an entry -/

/-- The stored block at `(0, c, o, p)`: the supremum over `kw`, then `kh`, of the loaded block at
    `(0, c, 2·o + kh, 2·p + kw)`. -/
theorem payload_apply (x0 : S1x16x48x48.Idx → EReal) (c : Fin 16) (o p : Fin 24) :
    k0_pay1 (F := Ideal) x0 (ix4 (0 : Fin 1) c o p)
      = ⨆ (kw : Fin 2) (kh : Fin 2), x0 (ix4 (0 : Fin 1) c ⟨o.val * 2 + kh.val, by omega⟩ ⟨p.val * 2 + kw.val, by omega⟩) := by
  unfold k0_pay1
  dsimp only
  -- the unit axis in front
  refine (shapeCast_apply _ _ (ix4 (0 : Fin 1) c o p) (ix3 c o p) ?_).trans ?_
  · rw [Shape.rowMajor_val_three, Shape.rowMajor_val_four]
    show (c.val * 24 + o.val) * 24 + p.val = ((0 * 16 + c.val) * 24 + o.val) * 24 + p.val
    omega
  -- the maximum over the column offset
  refine (multiReduction_maximumf_lead4 _ _ _ _ c o p).trans ?_
  refine iSup_congr fun kw => ?_
  refine (transpose_apply _ _ _ (ix4 kw c o p) (ix4 c o p kw) ?_).trans ?_
  · intro b
    match b with
    | ⟨0, _⟩ => rfl
    | ⟨1, _⟩ => rfl
    | ⟨2, _⟩ => rfl
    | ⟨3, _⟩ => rfl
  refine (shapeCast_apply _ _ (ix4 c o p kw) (ix3 c o (⟨p.val * 2 + kw.val, by omega⟩ : Fin 48)) ?_).trans ?_
  · rw [Shape.rowMajor_val_three, Shape.rowMajor_val_four]
    show (c.val * 24 + o.val) * 48 + (p.val * 2 + kw.val) = ((c.val * 24 + o.val) * 24 + p.val) * 2 + kw.val
    omega
  -- the maximum over the row offset
  refine (multiReduction_maximumf_lead4 _ _ _ _ c o (⟨p.val * 2 + kw.val, by omega⟩ : Fin 48)).trans ?_
  refine iSup_congr fun kh => ?_
  refine (transpose_apply _ _ _ (ix4 kh c o (⟨p.val * 2 + kw.val, by omega⟩ : Fin 48))
    (ix4 c o kh (⟨p.val * 2 + kw.val, by omega⟩ : Fin 48)) ?_).trans ?_
  · intro b
    match b with
    | ⟨0, _⟩ => rfl
    | ⟨1, _⟩ => rfl
    | ⟨2, _⟩ => rfl
    | ⟨3, _⟩ => rfl
  refine (shapeCast_apply _ _ (ix4 c o kh (⟨p.val * 2 + kw.val, by omega⟩ : Fin 48))
    (ix3 c (⟨o.val * 2 + kh.val, by omega⟩ : Fin 48) (⟨p.val * 2 + kw.val, by omega⟩ : Fin 48)) ?_).trans ?_
  · rw [Shape.rowMajor_val_three, Shape.rowMajor_val_four]
    show (c.val * 48 + (o.val * 2 + kh.val)) * 48 + (p.val * 2 + kw.val)
      = ((c.val * 24 + o.val) * 2 + kh.val) * 48 + (p.val * 2 + kw.val)
    omega
  refine shapeCast_apply _ _ (ix3 c (⟨o.val * 2 + kh.val, by omega⟩ : Fin 48) (⟨p.val * 2 + kw.val, by omega⟩ : Fin 48))
    (ix4 (0 : Fin 1) c (⟨o.val * 2 + kh.val, by omega⟩ : Fin 48) (⟨p.val * 2 + kw.val, by omega⟩ : Fin 48)) ?_
  rw [Shape.rowMajor_val_three, Shape.rowMajor_val_four]
  show ((0 * 16 + c.val) * 48 + (o.val * 2 + kh.val)) * 48 + (p.val * 2 + kw.val)
    = (c.val * 48 + (o.val * 2 + kh.val)) * 48 + (p.val * 2 + kw.val)
  omega

/-- A point's stored block against the whole arrays: when the loaded block is the tile `(q0, q1)` of `X`, the stored
    entry `j` is the window maximum of `X` at the entry `i` of the output array that `j` is written to. -/
theorem stored_entry (x0 : S1x16x48x48.Idx → EReal) (X : S16x128x48x48.Idx → EReal) (q0 : Fin 16) (q1 : Fin 8)
    (hx : ∀ (u : Fin 1) (cc : Fin 16) (h w : Fin 48), x0 (ix4 u cc h w) = X (ix4 q0 ⟨q1.val * 16 + cc.val, by omega⟩ h w))
    (j : S1x16x24x24.Idx) (i : S16x128x24x24.Idx)
    (h0 : (i 0).val = q0.val) (h1 : (i 1).val = q1.val * 16 + (j 1).val) (h2 : (i 2).val = (j 2).val) (h3 : (i 3).val = (j 3).val) :
    k0_pay1 (F := Ideal) x0 j = Spec.windowMax0 X i := by
  obtain ⟨u, cc, o, p, rfl⟩ : ∃ (u : Fin 1) (cc : Fin 16) (o p : Fin 24), j = ix4 u cc o p := ⟨j 0, j 1, j 2, j 3, eq_ix4 j⟩
  obtain rfl : u = 0 := Subsingleton.elim _ _
  have hlt : q1.val * 16 + cc.val < 128 := by omega
  obtain ⟨b, ch, o', p', rfl⟩ : ∃ (b : Fin 16) (ch : Fin 128) (o' p' : Fin 24), i = ix4 b ch o' p' := ⟨i 0, i 1, i 2, i 3, eq_ix4 i⟩
  obtain rfl : b = q0 := Fin.ext h0
  obtain rfl : ch = ⟨q1.val * 16 + cc.val, hlt⟩ := Fin.ext h1
  obtain rfl : o' = o := Fin.ext h2
  obtain rfl : p' = p := Fin.ext h3
  rw [payload_apply]
  show _ = Spec.windowMaxAt0 X b ⟨q1.val * 16 + cc.val, hlt⟩ o' p'
  unfold Spec.windowMaxAt0
  exact iSup_congr fun kw => iSup_congr fun kh => hx 0 cc _ _

/-! ## From the points' blocks to the array -/

variable (V : (c : Dev nD) → (b : Ref sig .tc) → Buf (Elt Ideal) ((c : Thread nD τ).loc b))

theorem zero_offsets : (![0, 0, 0, 0] : Fin 4 → Nat) = fun _ => 0 := funext fun a => by fin_cases a <;> rfl

/-- The printed index maps over the grid: the input block and the output block of a point sit at the same batch
    and channel group, at the origin of the two image axes. -/
theorem index_maps : ∀ t : Fin cfg0.N,
    win0_0.index t (0 : Fin 4) = win0_1.index t (0 : Fin 4) ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0
    ∧ win0_1.index t (0 : Fin 4) ≤ 15 ∧ win0_1.index t (1 : Fin 4) ≤ 7 :=
  (by decide +kernel : ∀ t : Fin grid0.N, _)

/-- Every (batch, channel group) is some point's. -/
theorem index_onto : ∀ (q0 : Fin 16) (q1 : Fin 8), ∃ t : Fin cfg0.N, win0_1.index t = ![q0.val, q1.val, 0, 0] :=
  (by decide +kernel : ∀ (q0 : Fin 16) (q1 : Fin 8), ∃ t : Fin grid0.N, win0_1.index t = ![q0.val, q1.val, 0, 0])

/-- What point `t` writes back is block `t` of the window maximum of the region's input array. -/
theorem flushed_eq (c : Dev nD) (t : Fin cfg0.N) :
    (dat0 (F := Ideal) V c).flushed 1 t = ((cfg0.win 1).blk t).view.read (Elt Ideal) (Spec.windowMax0 (V c main_arg0)) := by
  show (cfg0.win 1).cut (grid0.coords t) ((dat0 (F := Ideal) V c).after 1 t) = _
  rw [after0_1]
  unfold out0_1
  rw [View.canon_unit_zero zero_offsets]
  simp only [View.ld_unit_zero (S := S1x16x48x48) zero_offsets]
  obtain ⟨e0, e1, e2, e3, e4, e5, e6, e7⟩ := index_maps t
  have hblk : ∀ (u : Fin 1) (cc : Fin 16) (h w : Fin 48), iblk0 V c 0 t (ix4 u cc h w)
      = V c main_arg0 (ix4 (⟨win0_1.index t (0 : Fin 4), by omega⟩ : Fin 16)
          (⟨(⟨win0_1.index t (1 : Fin 4), by omega⟩ : Fin 8).val * 16 + cc.val, by omega⟩ : Fin 128) h w) := fun u cc h w => by
    show V c main_arg0 (((cfg0.win 0).blk t).view.emb (ix4 u cc h w)) = _
    refine congrArg (V c main_arg0) (funext fun a => Fin.ext ?_)
    match a with
    | ⟨0, _⟩ => show win0_0.index t (0 : Fin 4) * 1 + 1 * u.val = win0_1.index t (0 : Fin 4); omega
    | ⟨1, _⟩ => show win0_0.index t (1 : Fin 4) * 16 + 1 * cc.val = win0_1.index t (1 : Fin 4) * 16 + cc.val; omega
    | ⟨2, _⟩ => show win0_0.index t (2 : Fin 4) * 48 + 1 * h.val = h.val; omega
    | ⟨3, _⟩ => show win0_0.index t (3 : Fin 4) * 48 + 1 * w.val = w.val; omega
  funext j
  show k0_pay1 (F := Ideal) (iblk0 V c 0 t) j = Spec.windowMax0 (V c main_arg0) (((cfg0.win 1).blk t).view.emb j)
  refine stored_entry (iblk0 V c 0 t) (V c main_arg0) (⟨win0_1.index t (0 : Fin 4), by omega⟩ : Fin 16)
    (⟨win0_1.index t (1 : Fin 4), by omega⟩ : Fin 8) hblk j (((cfg0.win 1).blk t).view.emb j) ?_ ?_ ?_ ?_
  · show win0_1.index t (0 : Fin 4) * 1 + 1 * (j 0).val = win0_1.index t (0 : Fin 4)
    have hj : (j 0).val < 1 := (j 0).isLt
    omega
  · show win0_1.index t (1 : Fin 4) * 16 + 1 * (j 1).val = win0_1.index t (1 : Fin 4) * 16 + (j 1).val
    omega
  · show win0_1.index t (2 : Fin 4) * 24 + 1 * (j 2).val = (j 2).val
    omega
  · show win0_1.index t (3 : Fin 4) * 24 + 1 * (j 3).val = (j 3).val
    omega

/-- An entry of the output array is in point `t`'s block iff each coordinate is in the block's range on its axis. -/
theorem mem_blk (t : Fin cfg0.N) (i : S16x128x24x24.Idx) :
    i ∈ ((cfg0.win 1).blk t).view.set ↔ ∀ a : Fin 4, win0_1.index t a * S1x16x24x24.size a ≤ (i a).val
      ∧ (i a).val < win0_1.index t a * S1x16x24x24.size a + S1x16x24x24.size a := by
  show i ∈ ((View.whole main_v0).slice (win0_1.rect t)).set ↔ _
  rw [View.set_slice_whole, Rect.mem_set_unit]
  exact Iff.rfl

/-- Every entry of the output array is in the block of the point of its batch and channel group. -/
theorem cover (i : S16x128x24x24.Idx) : ∃ t : Fin cfg0.N, (cfg0.win 1).flush t = true ∧ i ∈ ((cfg0.win 1).blk t).view.set := by
  have hi0 : (i 0).val < 16 := (i 0).isLt
  have hi1 : (i 1).val < 128 := (i 1).isLt
  have hi2 : (i 2).val < 24 := (i 2).isLt
  have hi3 : (i 3).val < 24 := (i 3).isLt
  obtain ⟨t, ht⟩ := index_onto ⟨(i 0).val, hi0⟩ ⟨(i 1).val / 16, by omega⟩
  have q0 : win0_1.index t (0 : Fin 4) = (i 0).val := congrFun ht 0
  have q1 : win0_1.index t (1 : Fin 4) = (i 1).val / 16 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 16 ≤ (i 1).val ∧ (i 1).val < win0_1.index t (1 : Fin 4) * 16 + 16; omega
  | ⟨2, _⟩ => show win0_1.index t (2 : Fin 4) * 24 ≤ (i 2).val ∧ (i 2).val < win0_1.index t (2 : Fin 4) * 24 + 24; omega
  | ⟨3, _⟩ => show win0_1.index t (3 : Fin 4) * 24 ≤ (i 3).val ∧ (i 3).val < win0_1.index t (3 : Fin 4) * 24 + 24; omega

/-- After the region its output array is the window maximum of its input array as the region found it. -/
theorem final (c : Dev nD) : (dat0 (F := Ideal) V c).arrAt 1 cfg0.N = Spec.windowMax0 (V c main_arg0) :=
  (dat0 (F := Ideal) V c).arrAt_eq_of_cover 1 (Spec.windowMax0 (V c main_arg0)) (fun t _ => flushed_eq V c t) cover

end Cert.KernelIdeal.Pool0

end
-- ==== Proof.Pool1.lean ====
/-
  Pooling region 1: the 4×4 window maximum of a [16, 64, 96, 96] array.

  At a grid point (batch b, channel group g) the body sees 8 channels of one batch element. It splits the rows
  96 = 24·4 into (24, 4), brings the 4 to the front and takes the maximum over it from minus infinity; then
  does the same with the columns. So the entry (c, o, p) it stores is the supremum, over kw and kh below 4, of the
  block at (c, 4·o + kh, 4·p + kw): the supremum of the 4×4 window. The output blocks are the
  [1, 8, 24, 24] tiles of the [16, 64, 24, 24] array, one per grid point, and every entry of that array lies in
  exactly the tile of its batch and channel group; hence after the region the whole array is the window maximum of
  the region's input array.
-/
import proofs.«171771_j88167088652743_2_alg».proof.Proof.Gen.KernelIdeal.Frame
import proofs.«171771_j88167088652743_2_alg».proof.Proof.LibMaxFold
import Idealize.ShloMosaic.Lib.Pipeline.Value
import Idealize.ShloMosaic.Lib.ValueIdx
import proofs.«171771_j88167088652743_2_alg».proof.Proof.Spec

set_option maxRecDepth 16384

noncomputable section

namespace Cert.KernelIdeal.Pool1

open Cert.KernelIdeal Cert.KernelIdeal.Gen Idealize.ShloMosaic Idealize.ShloMosaic.TcCoe Idealize.SL.Sem
open Idealize.ShloMosaic.ValueIdx
open Idealize.ShloMosaic.Pipeline (Dat)
open Cert.LibMaxFold

/-! ## What the body stores, at an entry -/

/-- The stored block at `(0, c, o, p)`: the supremum over `kw`, then `kh`, of the loaded block at
    `(0, c, 4·o + kh, 4·p + kw)`. -/
theorem payload_apply (x0 : S1x8x96x96.Idx → EReal) (c : Fin 8) (o p : Fin 24) :
    k1_pay1 (F := Ideal) x0 (ix4 (0 : Fin 1) c o p)
      = ⨆ (kw : Fin 4) (kh : Fin 4), x0 (ix4 (0 : Fin 1) c ⟨o.val * 4 + kh.val, by omega⟩ ⟨p.val * 4 + kw.val, by omega⟩) := by
  unfold k1_pay1
  dsimp only
  -- the unit axis in front
  refine (shapeCast_apply _ _ (ix4 (0 : Fin 1) c o p) (ix3 c o p) ?_).trans ?_
  · rw [Shape.rowMajor_val_three, Shape.rowMajor_val_four]
    show (c.val * 24 + o.val) * 24 + p.val = ((0 * 8 + c.val) * 24 + o.val) * 24 + p.val
    omega
  -- the maximum over the column offset
  refine (multiReduction_maximumf_lead4 _ _ _ _ c o p).trans ?_
  refine iSup_congr fun kw => ?_
  refine (transpose_apply _ _ _ (ix4 kw c o p) (ix4 c o p kw) ?_).trans ?_
  · intro b
    match b with
    | ⟨0, _⟩ => rfl
    | ⟨1, _⟩ => rfl
    | ⟨2, _⟩ => rfl
    | ⟨3, _⟩ => rfl
  refine (shapeCast_apply _ _ (ix4 c o p kw) (ix3 c o (⟨p.val * 4 + kw.val, by omega⟩ : Fin 96)) ?_).trans ?_
  · rw [Shape.rowMajor_val_three, Shape.rowMajor_val_four]
    show (c.val * 24 + o.val) * 96 + (p.val * 4 + kw.val) = ((c.val * 24 + o.val) * 24 + p.val) * 4 + kw.val
    omega
  -- the maximum over the row offset
  refine (multiReduction_maximumf_lead4 _ _ _ _ c o (⟨p.val * 4 + kw.val, by omega⟩ : Fin 96)).trans ?_
  refine iSup_congr fun kh => ?_
  refine (transpose_apply _ _ _ (ix4 kh c o (⟨p.val * 4 + kw.val, by omega⟩ : Fin 96))
    (ix4 c o kh (⟨p.val * 4 + kw.val, by omega⟩ : Fin 96)) ?_).trans ?_
  · intro b
    match b with
    | ⟨0, _⟩ => rfl
    | ⟨1, _⟩ => rfl
    | ⟨2, _⟩ => rfl
    | ⟨3, _⟩ => rfl
  refine (shapeCast_apply _ _ (ix4 c o kh (⟨p.val * 4 + kw.val, by omega⟩ : Fin 96))
    (ix3 c (⟨o.val * 4 + kh.val, by omega⟩ : Fin 96) (⟨p.val * 4 + kw.val, by omega⟩ : Fin 96)) ?_).trans ?_
  · rw [Shape.rowMajor_val_three, Shape.rowMajor_val_four]
    show (c.val * 96 + (o.val * 4 + kh.val)) * 96 + (p.val * 4 + kw.val)
      = ((c.val * 24 + o.val) * 4 + kh.val) * 96 + (p.val * 4 + kw.val)
    omega
  refine shapeCast_apply _ _ (ix3 c (⟨o.val * 4 + kh.val, by omega⟩ : Fin 96) (⟨p.val * 4 + kw.val, by omega⟩ : Fin 96))
    (ix4 (0 : Fin 1) c (⟨o.val * 4 + kh.val, by omega⟩ : Fin 96) (⟨p.val * 4 + kw.val, by omega⟩ : Fin 96)) ?_
  rw [Shape.rowMajor_val_three, Shape.rowMajor_val_four]
  show ((0 * 8 + c.val) * 96 + (o.val * 4 + kh.val)) * 96 + (p.val * 4 + kw.val)
    = (c.val * 96 + (o.val * 4 + kh.val)) * 96 + (p.val * 4 + kw.val)
  omega

/-- A point's stored block against the whole arrays: when the loaded block is the tile `(q0, q1)` of `X`, the stored
    entry `j` is the window maximum of `X` at the entry `i` of the output array that `j` is written to. -/
theorem stored_entry (x0 : S1x8x96x96.Idx → EReal) (X : S16x64x96x96.Idx → EReal) (q0 : Fin 16) (q1 : Fin 8)
    (hx : ∀ (u : Fin 1) (cc : Fin 8) (h w : Fin 96), x0 (ix4 u cc h w) = X (ix4 q0 ⟨q1.val * 8 + cc.val, by omega⟩ h w))
    (j : S1x8x24x24.Idx) (i : S16x64x24x24.Idx)
    (h0 : (i 0).val = q0.val) (h1 : (i 1).val = q1.val * 8 + (j 1).val) (h2 : (i 2).val = (j 2).val) (h3 : (i 3).val = (j 3).val) :
    k1_pay1 (F := Ideal) x0 j = Spec.windowMax1 X i := by
  obtain ⟨u, cc, o, p, rfl⟩ : ∃ (u : Fin 1) (cc : Fin 8) (o p : Fin 24), j = ix4 u cc o p := ⟨j 0, j 1, j 2, j 3, eq_ix4 j⟩
  obtain rfl : u = 0 := Subsingleton.elim _ _
  have hlt : q1.val * 8 + cc.val < 64 := by omega
  obtain ⟨b, ch, o', p', rfl⟩ : ∃ (b : Fin 16) (ch : Fin 64) (o' p' : Fin 24), i = ix4 b ch o' p' := ⟨i 0, i 1, i 2, i 3, eq_ix4 i⟩
  obtain rfl : b = q0 := Fin.ext h0
  obtain rfl : ch = ⟨q1.val * 8 + cc.val, hlt⟩ := Fin.ext h1
  obtain rfl : o' = o := Fin.ext h2
  obtain rfl : p' = p := Fin.ext h3
  rw [payload_apply]
  show _ = Spec.windowMaxAt1 X b ⟨q1.val * 8 + cc.val, hlt⟩ o' p'
  unfold Spec.windowMaxAt1
  exact iSup_congr fun kw => iSup_congr fun kh => hx 0 cc _ _

/-! ## From the points' blocks to the array -/

variable (V : (c : Dev nD) → (b : Ref sig .tc) → Buf (Elt Ideal) ((c : Thread nD τ).loc b))

theorem zero_offsets : (![0, 0, 0, 0] : Fin 4 → Nat) = fun _ => 0 := funext fun a => by fin_cases a <;> rfl

/-- The printed index maps over the grid: the input block and the output block of a point sit at the same batch
    and channel group, at the origin of the two image axes. -/
theorem index_maps : ∀ t : Fin cfg1.N,
    win1_0.index t (0 : Fin 4) = win1_1.index t (0 : Fin 4) ∧ win1_0.index t (1 : Fin 4) = win1_1.index t (1 : Fin 4)
    ∧ win1_0.index t (2 : Fin 4) = 0 ∧ win1_0.index t (3 : Fin 4) = 0
    ∧ win1_1.index t (2 : Fin 4) = 0 ∧ win1_1.index t (3 : Fin 4) = 0
    ∧ win1_1.index t (0 : Fin 4) ≤ 15 ∧ win1_1.index t (1 : Fin 4) ≤ 7 :=
  (by decide +kernel : ∀ t : Fin grid1.N, _)

/-- Every (batch, channel group) is some point's. -/
theorem index_onto : ∀ (q0 : Fin 16) (q1 : Fin 8), ∃ t : Fin cfg1.N, win1_1.index t = ![q0.val, q1.val, 0, 0] :=
  (by decide +kernel : ∀ (q0 : Fin 16) (q1 : Fin 8), ∃ t : Fin grid1.N, win1_1.index t = ![q0.val, q1.val, 0, 0])

/-- What point `t` writes back is block `t` of the window maximum of the region's input array. -/
theorem flushed_eq (c : Dev nD) (t : Fin cfg1.N) :
    (dat1 (F := Ideal) V c).flushed 1 t = ((cfg1.win 1).blk t).view.read (Elt Ideal) (Spec.windowMax1 (V c main_arg1)) := by
  show (cfg1.win 1).cut (grid1.coords t) ((dat1 (F := Ideal) V c).after 1 t) = _
  rw [after1_1]
  unfold out1_1
  rw [View.canon_unit_zero zero_offsets]
  simp only [View.ld_unit_zero (S := S1x8x96x96) zero_offsets]
  obtain ⟨e0, e1, e2, e3, e4, e5, e6, e7⟩ := index_maps t
  have hblk : ∀ (u : Fin 1) (cc : Fin 8) (h w : Fin 96), iblk1 V c 0 t (ix4 u cc h w)
      = V c main_arg1 (ix4 (⟨win1_1.index t (0 : Fin 4), by omega⟩ : Fin 16)
          (⟨(⟨win1_1.index t (1 : Fin 4), by omega⟩ : Fin 8).val * 8 + cc.val, by omega⟩ : Fin 64) h w) := fun u cc h w => by
    show V c main_arg1 (((cfg1.win 0).blk t).view.emb (ix4 u cc h w)) = _
    refine congrArg (V c main_arg1) (funext fun a => Fin.ext ?_)
    match a with
    | ⟨0, _⟩ => show win1_0.index t (0 : Fin 4) * 1 + 1 * u.val = win1_1.index t (0 : Fin 4); omega
    | ⟨1, _⟩ => show win1_0.index t (1 : Fin 4) * 8 + 1 * cc.val = win1_1.index t (1 : Fin 4) * 8 + cc.val; omega
    | ⟨2, _⟩ => show win1_0.index t (2 : Fin 4) * 96 + 1 * h.val = h.val; omega
    | ⟨3, _⟩ => show win1_0.index t (3 : Fin 4) * 96 + 1 * w.val = w.val; omega
  funext j
  show k1_pay1 (F := Ideal) (iblk1 V c 0 t) j = Spec.windowMax1 (V c main_arg1) (((cfg1.win 1).blk t).view.emb j)
  refine stored_entry (iblk1 V c 0 t) (V c main_arg1) (⟨win1_1.index t (0 : Fin 4), by omega⟩ : Fin 16)
    (⟨win1_1.index t (1 : Fin 4), by omega⟩ : Fin 8) hblk j (((cfg1.win 1).blk t).view.emb j) ?_ ?_ ?_ ?_
  · show win1_1.index t (0 : Fin 4) * 1 + 1 * (j 0).val = win1_1.index t (0 : Fin 4)
    have hj : (j 0).val < 1 := (j 0).isLt
    omega
  · show win1_1.index t (1 : Fin 4) * 8 + 1 * (j 1).val = win1_1.index t (1 : Fin 4) * 8 + (j 1).val
    omega
  · show win1_1.index t (2 : Fin 4) * 24 + 1 * (j 2).val = (j 2).val
    omega
  · show win1_1.index t (3 : Fin 4) * 24 + 1 * (j 3).val = (j 3).val
    omega

/-- An entry of the output array is in point `t`'s block iff each coordinate is in the block's range on its axis. -/
theorem mem_blk (t : Fin cfg1.N) (i : S16x64x24x24.Idx) :
    i ∈ ((cfg1.win 1).blk t).view.set ↔ ∀ a : Fin 4, win1_1.index t a * S1x8x24x24.size a ≤ (i a).val
      ∧ (i a).val < win1_1.index t a * S1x8x24x24.size a + S1x8x24x24.size a := by
  show i ∈ ((View.whole main_v1).slice (win1_1.rect t)).set ↔ _
  rw [View.set_slice_whole, Rect.mem_set_unit]
  exact Iff.rfl

/-- Every entry of the output array is in the block of the point of its batch and channel group. -/
theorem cover (i : S16x64x24x24.Idx) : ∃ t : Fin cfg1.N, (cfg1.win 1).flush t = true ∧ i ∈ ((cfg1.win 1).blk t).view.set := by
  have hi0 : (i 0).val < 16 := (i 0).isLt
  have hi1 : (i 1).val < 64 := (i 1).isLt
  have hi2 : (i 2).val < 24 := (i 2).isLt
  have hi3 : (i 3).val < 24 := (i 3).isLt
  obtain ⟨t, ht⟩ := index_onto ⟨(i 0).val, hi0⟩ ⟨(i 1).val / 8, by omega⟩
  have q0 : win1_1.index t (0 : Fin 4) = (i 0).val := congrFun ht 0
  have q1 : win1_1.index t (1 : Fin 4) = (i 1).val / 8 := congrFun ht 1
  have q2 : win1_1.index t (2 : Fin 4) = 0 := congrFun ht 2
  have q3 : win1_1.index t (3 : Fin 4) = 0 := congrFun ht 3
  refine ⟨t, flush1_1 t, ?_⟩
  rw [mem_blk]
  intro a
  match a with
  | ⟨0, _⟩ => show win1_1.index t (0 : Fin 4) * 1 ≤ (i 0).val ∧ (i 0).val < win1_1.index t (0 : Fin 4) * 1 + 1; omega
  | ⟨1, _⟩ => show win1_1.index t (1 : Fin 4) * 8 ≤ (i 1).val ∧ (i 1).val < win1_1.index t (1 : Fin 4) * 8 + 8; omega
  | ⟨2, _⟩ => show win1_1.index t (2 : Fin 4) * 24 ≤ (i 2).val ∧ (i 2).val < win1_1.index t (2 : Fin 4) * 24 + 24; omega
  | ⟨3, _⟩ => show win1_1.index t (3 : Fin 4) * 24 ≤ (i 3).val ∧ (i 3).val < win1_1.index t (3 : Fin 4) * 24 + 24; omega

/-- After the region its output array is the window maximum of its input array as the region found it. -/
theorem final (c : Dev nD) : (dat1 (F := Ideal) V c).arrAt 1 cfg1.N = Spec.windowMax1 (V c main_arg1) :=
  (dat1 (F := Ideal) V c).arrAt_eq_of_cover 1 (Spec.windowMax1 (V c main_arg1)) (fun t _ => flushed_eq V c t) cover

end Cert.KernelIdeal.Pool1

end
-- ==== Proof.Pool2.lean ====
/-
  Pooling region 2: the 8×8 window maximum of a [16, 32, 192, 192] array.

  At a grid point (batch b, channel group g) the body sees 4 channels of one batch element. It splits the rows
  192 = 24·8 into (24, 8), brings the 8 to the front and takes the maximum over it from minus infinity; then
  does the same with the columns. So the entry (c, o, p) it stores is the supremum, over kw and kh below 8, of the
  block at (c, 8·o + kh, 8·p + kw): the supremum of the 8×8 window. The output blocks are the
  [1, 4, 24, 24] tiles of the [16, 32, 24, 24] array, one per grid point, and every entry of that array lies in
  exactly the tile of its batch and channel group; hence after the region the whole array is the window maximum of
  the region's input array.
-/
import proofs.«171771_j88167088652743_2_alg».proof.Proof.Gen.KernelIdeal.Frame
import proofs.«171771_j88167088652743_2_alg».proof.Proof.LibMaxFold
import Idealize.ShloMosaic.Lib.Pipeline.Value
import Idealize.ShloMosaic.Lib.ValueIdx
import proofs.«171771_j88167088652743_2_alg».proof.Proof.Spec

set_option maxRecDepth 16384

noncomputable section

namespace Cert.KernelIdeal.Pool2

open Cert.KernelIdeal Cert.KernelIdeal.Gen Idealize.ShloMosaic Idealize.ShloMosaic.TcCoe Idealize.SL.Sem
open Idealize.ShloMosaic.ValueIdx
open Idealize.ShloMosaic.Pipeline (Dat)
open Cert.LibMaxFold

/-! ## What the body stores, at an entry -/

/-- The stored block at `(0, c, o, p)`: the supremum over `kw`, then `kh`, of the loaded block at
    `(0, c, 8·o + kh, 8·p + kw)`. -/
theorem payload_apply (x0 : S1x4x192x192.Idx → EReal) (c : Fin 4) (o p : Fin 24) :
    k2_pay1 (F := Ideal) x0 (ix4 (0 : Fin 1) c o p)
      = ⨆ (kw : Fin 8) (kh : Fin 8), x0 (ix4 (0 : Fin 1) c ⟨o.val * 8 + kh.val, by omega⟩ ⟨p.val * 8 + kw.val, by omega⟩) := by
  unfold k2_pay1
  dsimp only
  -- the unit axis in front
  refine (shapeCast_apply _ _ (ix4 (0 : Fin 1) c o p) (ix3 c o p) ?_).trans ?_
  · rw [Shape.rowMajor_val_three, Shape.rowMajor_val_four]
    show (c.val * 24 + o.val) * 24 + p.val = ((0 * 4 + c.val) * 24 + o.val) * 24 + p.val
    omega
  -- the maximum over the column offset
  refine (multiReduction_maximumf_lead4 _ _ _ _ c o p).trans ?_
  refine iSup_congr fun kw => ?_
  refine (transpose_apply _ _ _ (ix4 kw c o p) (ix4 c o p kw) ?_).trans ?_
  · intro b
    match b with
    | ⟨0, _⟩ => rfl
    | ⟨1, _⟩ => rfl
    | ⟨2, _⟩ => rfl
    | ⟨3, _⟩ => rfl
  refine (shapeCast_apply _ _ (ix4 c o p kw) (ix3 c o (⟨p.val * 8 + kw.val, by omega⟩ : Fin 192)) ?_).trans ?_
  · rw [Shape.rowMajor_val_three, Shape.rowMajor_val_four]
    show (c.val * 24 + o.val) * 192 + (p.val * 8 + kw.val) = ((c.val * 24 + o.val) * 24 + p.val) * 8 + kw.val
    omega
  -- the maximum over the row offset
  refine (multiReduction_maximumf_lead4 _ _ _ _ c o (⟨p.val * 8 + kw.val, by omega⟩ : Fin 192)).trans ?_
  refine iSup_congr fun kh => ?_
  refine (transpose_apply _ _ _ (ix4 kh c o (⟨p.val * 8 + kw.val, by omega⟩ : Fin 192))
    (ix4 c o kh (⟨p.val * 8 + kw.val, by omega⟩ : Fin 192)) ?_).trans ?_
  · intro b
    match b with
    | ⟨0, _⟩ => rfl
    | ⟨1, _⟩ => rfl
    | ⟨2, _⟩ => rfl
    | ⟨3, _⟩ => rfl
  refine (shapeCast_apply _ _ (ix4 c o kh (⟨p.val * 8 + kw.val, by omega⟩ : Fin 192))
    (ix3 c (⟨o.val * 8 + kh.val, by omega⟩ : Fin 192) (⟨p.val * 8 + kw.val, by omega⟩ : Fin 192)) ?_).trans ?_
  · rw [Shape.rowMajor_val_three, Shape.rowMajor_val_four]
    show (c.val * 192 + (o.val * 8 + kh.val)) * 192 + (p.val * 8 + kw.val)
      = ((c.val * 24 + o.val) * 8 + kh.val) * 192 + (p.val * 8 + kw.val)
    omega
  refine shapeCast_apply _ _ (ix3 c (⟨o.val * 8 + kh.val, by omega⟩ : Fin 192) (⟨p.val * 8 + kw.val, by omega⟩ : Fin 192))
    (ix4 (0 : Fin 1) c (⟨o.val * 8 + kh.val, by omega⟩ : Fin 192) (⟨p.val * 8 + kw.val, by omega⟩ : Fin 192)) ?_
  rw [Shape.rowMajor_val_three, Shape.rowMajor_val_four]
  show ((0 * 4 + c.val) * 192 + (o.val * 8 + kh.val)) * 192 + (p.val * 8 + kw.val)
    = (c.val * 192 + (o.val * 8 + kh.val)) * 192 + (p.val * 8 + kw.val)
  omega

/-- A point's stored block against the whole arrays: when the loaded block is the tile `(q0, q1)` of `X`, the stored
    entry `j` is the window maximum of `X` at the entry `i` of the output array that `j` is written to. -/
theorem stored_entry (x0 : S1x4x192x192.Idx → EReal) (X : S16x32x192x192.Idx → EReal) (q0 : Fin 16) (q1 : Fin 8)
    (hx : ∀ (u : Fin 1) (cc : Fin 4) (h w : Fin 192), x0 (ix4 u cc h w) = X (ix4 q0 ⟨q1.val * 4 + cc.val, by omega⟩ h w))
    (j : S1x4x24x24.Idx) (i : S16x32x24x24.Idx)
    (h0 : (i 0).val = q0.val) (h1 : (i 1).val = q1.val * 4 + (j 1).val) (h2 : (i 2).val = (j 2).val) (h3 : (i 3).val = (j 3).val) :
    k2_pay1 (F := Ideal) x0 j = Spec.windowMax2 X i := by
  obtain ⟨u, cc, o, p, rfl⟩ : ∃ (u : Fin 1) (cc : Fin 4) (o p : Fin 24), j = ix4 u cc o p := ⟨j 0, j 1, j 2, j 3, eq_ix4 j⟩
  obtain rfl : u = 0 := Subsingleton.elim _ _
  have hlt : q1.val * 4 + cc.val < 32 := by omega
  obtain ⟨b, ch, o', p', rfl⟩ : ∃ (b : Fin 16) (ch : Fin 32) (o' p' : Fin 24), i = ix4 b ch o' p' := ⟨i 0, i 1, i 2, i 3, eq_ix4 i⟩
  obtain rfl : b = q0 := Fin.ext h0
  obtain rfl : ch = ⟨q1.val * 4 + cc.val, hlt⟩ := Fin.ext h1
  obtain rfl : o' = o := Fin.ext h2
  obtain rfl : p' = p := Fin.ext h3
  rw [payload_apply]
  show _ = Spec.windowMaxAt2 X b ⟨q1.val * 4 + cc.val, hlt⟩ o' p'
  unfold Spec.windowMaxAt2
  exact iSup_congr fun kw => iSup_congr fun kh => hx 0 cc _ _

/-! ## From the points' blocks to the array -/

variable (V : (c : Dev nD) → (b : Ref sig .tc) → Buf (Elt Ideal) ((c : Thread nD τ).loc b))

theorem zero_offsets : (![0, 0, 0, 0] : Fin 4 → Nat) = fun _ => 0 := funext fun a => by fin_cases a <;> rfl

/-- The printed index maps over the grid: the input block and the output block of a point sit at the same batch
    and channel group, at the origin of the two image axes. -/
theorem index_maps : ∀ t : Fin cfg2.N,
    win2_0.index t (0 : Fin 4) = win2_1.index t (0 : Fin 4) ∧ win2_0.index t (1 : Fin 4) = win2_1.index t (1 : Fin 4)
    ∧ win2_0.index t (2 : Fin 4) = 0 ∧ win2_0.index t (3 : Fin 4) = 0
    ∧ win2_1.index t (2 : Fin 4) = 0 ∧ win2_1.index t (3 : Fin 4) = 0
    ∧ win2_1.index t (0 : Fin 4) ≤ 15 ∧ win2_1.index t (1 : Fin 4) ≤ 7 :=
  (by decide +kernel : ∀ t : Fin grid2.N, _)

/-- Every (batch, channel group) is some point's. -/
theorem index_onto : ∀ (q0 : Fin 16) (q1 : Fin 8), ∃ t : Fin cfg2.N, win2_1.index t = ![q0.val, q1.val, 0, 0] :=
  (by decide +kernel : ∀ (q0 : Fin 16) (q1 : Fin 8), ∃ t : Fin grid2.N, win2_1.index t = ![q0.val, q1.val, 0, 0])

/-- What point `t` writes back is block `t` of the window maximum of the region's input array. -/
theorem flushed_eq (c : Dev nD) (t : Fin cfg2.N) :
    (dat2 (F := Ideal) V c).flushed 1 t = ((cfg2.win 1).blk t).view.read (Elt Ideal) (Spec.windowMax2 (V c main_arg2)) := by
  show (cfg2.win 1).cut (grid2.coords t) ((dat2 (F := Ideal) V c).after 1 t) = _
  rw [after2_1]
  unfold out2_1
  rw [View.canon_unit_zero zero_offsets]
  simp only [View.ld_unit_zero (S := S1x4x192x192) zero_offsets]
  obtain ⟨e0, e1, e2, e3, e4, e5, e6, e7⟩ := index_maps t
  have hblk : ∀ (u : Fin 1) (cc : Fin 4) (h w : Fin 192), iblk2 V c 0 t (ix4 u cc h w)
      = V c main_arg2 (ix4 (⟨win2_1.index t (0 : Fin 4), by omega⟩ : Fin 16)
          (⟨(⟨win2_1.index t (1 : Fin 4), by omega⟩ : Fin 8).val * 4 + cc.val, by omega⟩ : Fin 32) h w) := fun u cc h w => by
    show V c main_arg2 (((cfg2.win 0).blk t).view.emb (ix4 u cc h w)) = _
    refine congrArg (V c main_arg2) (funext fun a => Fin.ext ?_)
    match a with
    | ⟨0, _⟩ => show win2_0.index t (0 : Fin 4) * 1 + 1 * u.val = win2_1.index t (0 : Fin 4); omega
    | ⟨1, _⟩ => show win2_0.index t (1 : Fin 4) * 4 + 1 * cc.val = win2_1.index t (1 : Fin 4) * 4 + cc.val; omega
    | ⟨2, _⟩ => show win2_0.index t (2 : Fin 4) * 192 + 1 * h.val = h.val; omega
    | ⟨3, _⟩ => show win2_0.index t (3 : Fin 4) * 192 + 1 * w.val = w.val; omega
  funext j
  show k2_pay1 (F := Ideal) (iblk2 V c 0 t) j = Spec.windowMax2 (V c main_arg2) (((cfg2.win 1).blk t).view.emb j)
  refine stored_entry (iblk2 V c 0 t) (V c main_arg2) (⟨win2_1.index t (0 : Fin 4), by omega⟩ : Fin 16)
    (⟨win2_1.index t (1 : Fin 4), by omega⟩ : Fin 8) hblk j (((cfg2.win 1).blk t).view.emb j) ?_ ?_ ?_ ?_
  · show win2_1.index t (0 : Fin 4) * 1 + 1 * (j 0).val = win2_1.index t (0 : Fin 4)
    have hj : (j 0).val < 1 := (j 0).isLt
    omega
  · show win2_1.index t (1 : Fin 4) * 4 + 1 * (j 1).val = win2_1.index t (1 : Fin 4) * 4 + (j 1).val
    omega
  · show win2_1.index t (2 : Fin 4) * 24 + 1 * (j 2).val = (j 2).val
    omega
  · show win2_1.index t (3 : Fin 4) * 24 + 1 * (j 3).val = (j 3).val
    omega

/-- An entry of the output array is in point `t`'s block iff each coordinate is in the block's range on its axis. -/
theorem mem_blk (t : Fin cfg2.N) (i : S16x32x24x24.Idx) :
    i ∈ ((cfg2.win 1).blk t).view.set ↔ ∀ a : Fin 4, win2_1.index t a * S1x4x24x24.size a ≤ (i a).val
      ∧ (i a).val < win2_1.index t a * S1x4x24x24.size a + S1x4x24x24.size a := by
  show i ∈ ((View.whole main_v2).slice (win2_1.rect t)).set ↔ _
  rw [View.set_slice_whole, Rect.mem_set_unit]
  exact Iff.rfl

/-- Every entry of the output array is in the block of the point of its batch and channel group. -/
theorem cover (i : S16x32x24x24.Idx) : ∃ t : Fin cfg2.N, (cfg2.win 1).flush t = true ∧ i ∈ ((cfg2.win 1).blk t).view.set := by
  have hi0 : (i 0).val < 16 := (i 0).isLt
  have hi1 : (i 1).val < 32 := (i 1).isLt
  have hi2 : (i 2).val < 24 := (i 2).isLt
  have hi3 : (i 3).val < 24 := (i 3).isLt
  obtain ⟨t, ht⟩ := index_onto ⟨(i 0).val, hi0⟩ ⟨(i 1).val / 4, by omega⟩
  have q0 : win2_1.index t (0 : Fin 4) = (i 0).val := congrFun ht 0
  have q1 : win2_1.index t (1 : Fin 4) = (i 1).val / 4 := congrFun ht 1
  have q2 : win2_1.index t (2 : Fin 4) = 0 := congrFun ht 2
  have q3 : win2_1.index t (3 : Fin 4) = 0 := congrFun ht 3
  refine ⟨t, flush2_1 t, ?_⟩
  rw [mem_blk]
  intro a
  match a with
  | ⟨0, _⟩ => show win2_1.index t (0 : Fin 4) * 1 ≤ (i 0).val ∧ (i 0).val < win2_1.index t (0 : Fin 4) * 1 + 1; omega
  | ⟨1, _⟩ => show win2_1.index t (1 : Fin 4) * 4 ≤ (i 1).val ∧ (i 1).val < win2_1.index t (1 : Fin 4) * 4 + 4; omega
  | ⟨2, _⟩ => show win2_1.index t (2 : Fin 4) * 24 ≤ (i 2).val ∧ (i 2).val < win2_1.index t (2 : Fin 4) * 24 + 24; omega
  | ⟨3, _⟩ => show win2_1.index t (3 : Fin 4) * 24 ≤ (i 3).val ∧ (i 3).val < win2_1.index t (3 : Fin 4) * 24 + 24; omega

/-- After the region its output array is the window maximum of its input array as the region found it. -/
theorem final (c : Dev nD) : (dat2 (F := Ideal) V c).arrAt 1 cfg2.N = Spec.windowMax2 (V c main_arg2) :=
  (dat2 (F := Ideal) V c).arrAt_eq_of_cover 1 (Spec.windowMax2 (V c main_arg2)) (fun t _ => flushed_eq V c t) cover

end Cert.KernelIdeal.Pool2

end
-- ==== Proof.Pool3.lean ====
/-
  Pooling region 3: the 16×16 window maximum of a [16, 16, 384, 384] array.

  At a grid point (batch b, channel group g) the body sees 2 channels of one batch element. It splits the rows
  384 = 24·16 into (24, 16), brings the 16 to the front and takes the maximum over it from minus infinity; then
  does the same with the columns. So the entry (c, o, p) it stores is the supremum, over kw and kh below 16, of the
  block at (c, 16·o + kh, 16·p + kw): the supremum of the 16×16 window. The output blocks are the
  [1, 2, 24, 24] tiles of the [16, 16, 24, 24] array, one per grid point, and every entry of that array lies in
  exactly the tile of its batch and channel group; hence after the region the whole array is the window maximum of
  the region's input array.
-/
import proofs.«171771_j88167088652743_2_alg».proof.Proof.Gen.KernelIdeal.Frame
import proofs.«171771_j88167088652743_2_alg».proof.Proof.LibMaxFold
import Idealize.ShloMosaic.Lib.Pipeline.Value
import Idealize.ShloMosaic.Lib.ValueIdx
import proofs.«171771_j88167088652743_2_alg».proof.Proof.Spec

set_option maxRecDepth 16384

noncomputable section

namespace Cert.KernelIdeal.Pool3

open Cert.KernelIdeal Cert.KernelIdeal.Gen Idealize.ShloMosaic Idealize.ShloMosaic.TcCoe Idealize.SL.Sem
open Idealize.ShloMosaic.ValueIdx
open Idealize.ShloMosaic.Pipeline (Dat)
open Cert.LibMaxFold

/-! ## What the body stores, at an entry -/

/-- The stored block at `(0, c, o, p)`: the supremum over `kw`, then `kh`, of the loaded block at
    `(0, c, 16·o + kh, 16·p + kw)`. -/
theorem payload_apply (x0 : S1x2x384x384.Idx → EReal) (c : Fin 2) (o p : Fin 24) :
    k3_pay1 (F := Ideal) x0 (ix4 (0 : Fin 1) c o p)
      = ⨆ (kw : Fin 16) (kh : Fin 16), x0 (ix4 (0 : Fin 1) c ⟨o.val * 16 + kh.val, by omega⟩ ⟨p.val * 16 + kw.val, by omega⟩) := by
  unfold k3_pay1
  dsimp only
  -- the unit axis in front
  refine (shapeCast_apply _ _ (ix4 (0 : Fin 1) c o p) (ix3 c o p) ?_).trans ?_
  · rw [Shape.rowMajor_val_three, Shape.rowMajor_val_four]
    show (c.val * 24 + o.val) * 24 + p.val = ((0 * 2 + c.val) * 24 + o.val) * 24 + p.val
    omega
  -- the maximum over the column offset
  refine (multiReduction_maximumf_lead4 _ _ _ _ c o p).trans ?_
  refine iSup_congr fun kw => ?_
  refine (transpose_apply _ _ _ (ix4 kw c o p) (ix4 c o p kw) ?_).trans ?_
  · intro b
    match b with
    | ⟨0, _⟩ => rfl
    | ⟨1, _⟩ => rfl
    | ⟨2, _⟩ => rfl
    | ⟨3, _⟩ => rfl
  refine (shapeCast_apply _ _ (ix4 c o p kw) (ix3 c o (⟨p.val * 16 + kw.val, by omega⟩ : Fin 384)) ?_).trans ?_
  · rw [Shape.rowMajor_val_three, Shape.rowMajor_val_four]
    show (c.val * 24 + o.val) * 384 + (p.val * 16 + kw.val) = ((c.val * 24 + o.val) * 24 + p.val) * 16 + kw.val
    omega
  -- the maximum over the row offset
  refine (multiReduction_maximumf_lead4 _ _ _ _ c o (⟨p.val * 16 + kw.val, by omega⟩ : Fin 384)).trans ?_
  refine iSup_congr fun kh => ?_
  refine (transpose_apply _ _ _ (ix4 kh c o (⟨p.val * 16 + kw.val, by omega⟩ : Fin 384))
    (ix4 c o kh (⟨p.val * 16 + kw.val, by omega⟩ : Fin 384)) ?_).trans ?_
  · intro b
    match b with
    | ⟨0, _⟩ => rfl
    | ⟨1, _⟩ => rfl
    | ⟨2, _⟩ => rfl
    | ⟨3, _⟩ => rfl
  refine (shapeCast_apply _ _ (ix4 c o kh (⟨p.val * 16 + kw.val, by omega⟩ : Fin 384))
    (ix3 c (⟨o.val * 16 + kh.val, by omega⟩ : Fin 384) (⟨p.val * 16 + kw.val, by omega⟩ : Fin 384)) ?_).trans ?_
  · rw [Shape.rowMajor_val_three, Shape.rowMajor_val_four]
    show (c.val * 384 + (o.val * 16 + kh.val)) * 384 + (p.val * 16 + kw.val)
      = ((c.val * 24 + o.val) * 16 + kh.val) * 384 + (p.val * 16 + kw.val)
    omega
  refine shapeCast_apply _ _ (ix3 c (⟨o.val * 16 + kh.val, by omega⟩ : Fin 384) (⟨p.val * 16 + kw.val, by omega⟩ : Fin 384))
    (ix4 (0 : Fin 1) c (⟨o.val * 16 + kh.val, by omega⟩ : Fin 384) (⟨p.val * 16 + kw.val, by omega⟩ : Fin 384)) ?_
  rw [Shape.rowMajor_val_three, Shape.rowMajor_val_four]
  show ((0 * 2 + c.val) * 384 + (o.val * 16 + kh.val)) * 384 + (p.val * 16 + kw.val)
    = (c.val * 384 + (o.val * 16 + kh.val)) * 384 + (p.val * 16 + kw.val)
  omega

/-- A point's stored block against the whole arrays: when the loaded block is the tile `(q0, q1)` of `X`, the stored
    entry `j` is the window maximum of `X` at the entry `i` of the output array that `j` is written to. -/
theorem stored_entry (x0 : S1x2x384x384.Idx → EReal) (X : S16x16x384x384.Idx → EReal) (q0 : Fin 16) (q1 : Fin 8)
    (hx : ∀ (u : Fin 1) (cc : Fin 2) (h w : Fin 384), x0 (ix4 u cc h w) = X (ix4 q0 ⟨q1.val * 2 + cc.val, by omega⟩ h w))
    (j : S1x2x24x24.Idx) (i : S16x16x24x24.Idx)
    (h0 : (i 0).val = q0.val) (h1 : (i 1).val = q1.val * 2 + (j 1).val) (h2 : (i 2).val = (j 2).val) (h3 : (i 3).val = (j 3).val) :
    k3_pay1 (F := Ideal) x0 j = Spec.windowMax3 X i := by
  obtain ⟨u, cc, o, p, rfl⟩ : ∃ (u : Fin 1) (cc : Fin 2) (o p : Fin 24), j = ix4 u cc o p := ⟨j 0, j 1, j 2, j 3, eq_ix4 j⟩
  obtain rfl : u = 0 := Subsingleton.elim _ _
  have hlt : q1.val * 2 + cc.val < 16 := by omega
  obtain ⟨b, ch, o', p', rfl⟩ : ∃ (b : Fin 16) (ch : Fin 16) (o' p' : Fin 24), i = ix4 b ch o' p' := ⟨i 0, i 1, i 2, i 3, eq_ix4 i⟩
  obtain rfl : b = q0 := Fin.ext h0
  obtain rfl : ch = ⟨q1.val * 2 + cc.val, hlt⟩ := Fin.ext h1
  obtain rfl : o' = o := Fin.ext h2
  obtain rfl : p' = p := Fin.ext h3
  rw [payload_apply]
  show _ = Spec.windowMaxAt3 X b ⟨q1.val * 2 + cc.val, hlt⟩ o' p'
  unfold Spec.windowMaxAt3
  exact iSup_congr fun kw => iSup_congr fun kh => hx 0 cc _ _

/-! ## From the points' blocks to the array -/

variable (V : (c : Dev nD) → (b : Ref sig .tc) → Buf (Elt Ideal) ((c : Thread nD τ).loc b))

theorem zero_offsets : (![0, 0, 0, 0] : Fin 4 → Nat) = fun _ => 0 := funext fun a => by fin_cases a <;> rfl

/-- The printed index maps over the grid: the input block and the output block of a point sit at the same batch
    and channel group, at the origin of the two image axes. -/
theorem index_maps : ∀ t : Fin cfg3.N,
    win3_0.index t (0 : Fin 4) = win3_1.index t (0 : Fin 4) ∧ win3_0.index t (1 : Fin 4) = win3_1.index t (1 : Fin 4)
    ∧ win3_0.index t (2 : Fin 4) = 0 ∧ win3_0.index t (3 : Fin 4) = 0
    ∧ win3_1.index t (2 : Fin 4) = 0 ∧ win3_1.index t (3 : Fin 4) = 0
    ∧ win3_1.index t (0 : Fin 4) ≤ 15 ∧ win3_1.index t (1 : Fin 4) ≤ 7 :=
  (by decide +kernel : ∀ t : Fin grid3.N, _)

/-- Every (batch, channel group) is some point's. -/
theorem index_onto : ∀ (q0 : Fin 16) (q1 : Fin 8), ∃ t : Fin cfg3.N, win3_1.index t = ![q0.val, q1.val, 0, 0] :=
  (by decide +kernel : ∀ (q0 : Fin 16) (q1 : Fin 8), ∃ t : Fin grid3.N, win3_1.index t = ![q0.val, q1.val, 0, 0])

/-- What point `t` writes back is block `t` of the window maximum of the region's input array. -/
theorem flushed_eq (c : Dev nD) (t : Fin cfg3.N) :
    (dat3 (F := Ideal) V c).flushed 1 t = ((cfg3.win 1).blk t).view.read (Elt Ideal) (Spec.windowMax3 (V c main_arg3)) := by
  show (cfg3.win 1).cut (grid3.coords t) ((dat3 (F := Ideal) V c).after 1 t) = _
  rw [after3_1]
  unfold out3_1
  rw [View.canon_unit_zero zero_offsets]
  simp only [View.ld_unit_zero (S := S1x2x384x384) zero_offsets]
  obtain ⟨e0, e1, e2, e3, e4, e5, e6, e7⟩ := index_maps t
  have hblk : ∀ (u : Fin 1) (cc : Fin 2) (h w : Fin 384), iblk3 V c 0 t (ix4 u cc h w)
      = V c main_arg3 (ix4 (⟨win3_1.index t (0 : Fin 4), by omega⟩ : Fin 16)
          (⟨(⟨win3_1.index t (1 : Fin 4), by omega⟩ : Fin 8).val * 2 + cc.val, by omega⟩ : Fin 16) h w) := fun u cc h w => by
    show V c main_arg3 (((cfg3.win 0).blk t).view.emb (ix4 u cc h w)) = _
    refine congrArg (V c main_arg3) (funext fun a => Fin.ext ?_)
    match a with
    | ⟨0, _⟩ => show win3_0.index t (0 : Fin 4) * 1 + 1 * u.val = win3_1.index t (0 : Fin 4); omega
    | ⟨1, _⟩ => show win3_0.index t (1 : Fin 4) * 2 + 1 * cc.val = win3_1.index t (1 : Fin 4) * 2 + cc.val; omega
    | ⟨2, _⟩ => show win3_0.index t (2 : Fin 4) * 384 + 1 * h.val = h.val; omega
    | ⟨3, _⟩ => show win3_0.index t (3 : Fin 4) * 384 + 1 * w.val = w.val; omega
  funext j
  show k3_pay1 (F := Ideal) (iblk3 V c 0 t) j = Spec.windowMax3 (V c main_arg3) (((cfg3.win 1).blk t).view.emb j)
  refine stored_entry (iblk3 V c 0 t) (V c main_arg3) (⟨win3_1.index t (0 : Fin 4), by omega⟩ : Fin 16)
    (⟨win3_1.index t (1 : Fin 4), by omega⟩ : Fin 8) hblk j (((cfg3.win 1).blk t).view.emb j) ?_ ?_ ?_ ?_
  · show win3_1.index t (0 : Fin 4) * 1 + 1 * (j 0).val = win3_1.index t (0 : Fin 4)
    have hj : (j 0).val < 1 := (j 0).isLt
    omega
  · show win3_1.index t (1 : Fin 4) * 2 + 1 * (j 1).val = win3_1.index t (1 : Fin 4) * 2 + (j 1).val
    omega
  · show win3_1.index t (2 : Fin 4) * 24 + 1 * (j 2).val = (j 2).val
    omega
  · show win3_1.index t (3 : Fin 4) * 24 + 1 * (j 3).val = (j 3).val
    omega

/-- An entry of the output array is in point `t`'s block iff each coordinate is in the block's range on its axis. -/
theorem mem_blk (t : Fin cfg3.N) (i : S16x16x24x24.Idx) :
    i ∈ ((cfg3.win 1).blk t).view.set ↔ ∀ a : Fin 4, win3_1.index t a * S1x2x24x24.size a ≤ (i a).val
      ∧ (i a).val < win3_1.index t a * S1x2x24x24.size a + S1x2x24x24.size a := by
  show i ∈ ((View.whole main_v3).slice (win3_1.rect t)).set ↔ _
  rw [View.set_slice_whole, Rect.mem_set_unit]
  exact Iff.rfl

/-- Every entry of the output array is in the block of the point of its batch and channel group. -/
theorem cover (i : S16x16x24x24.Idx) : ∃ t : Fin cfg3.N, (cfg3.win 1).flush t = true ∧ i ∈ ((cfg3.win 1).blk t).view.set := by
  have hi0 : (i 0).val < 16 := (i 0).isLt
  have hi1 : (i 1).val < 16 := (i 1).isLt
  have hi2 : (i 2).val < 24 := (i 2).isLt
  have hi3 : (i 3).val < 24 := (i 3).isLt
  obtain ⟨t, ht⟩ := index_onto ⟨(i 0).val, hi0⟩ ⟨(i 1).val / 2, by omega⟩
  have q0 : win3_1.index t (0 : Fin 4) = (i 0).val := congrFun ht 0
  have q1 : win3_1.index t (1 : Fin 4) = (i 1).val / 2 := congrFun ht 1
  have q2 : win3_1.index t (2 : Fin 4) = 0 := congrFun ht 2
  have q3 : win3_1.index t (3 : Fin 4) = 0 := congrFun ht 3
  refine ⟨t, flush3_1 t, ?_⟩
  rw [mem_blk]
  intro a
  match a with
  | ⟨0, _⟩ => show win3_1.index t (0 : Fin 4) * 1 ≤ (i 0).val ∧ (i 0).val < win3_1.index t (0 : Fin 4) * 1 + 1; omega
  | ⟨1, _⟩ => show win3_1.index t (1 : Fin 4) * 2 ≤ (i 1).val ∧ (i 1).val < win3_1.index t (1 : Fin 4) * 2 + 2; omega
  | ⟨2, _⟩ => show win3_1.index t (2 : Fin 4) * 24 ≤ (i 2).val ∧ (i 2).val < win3_1.index t (2 : Fin 4) * 24 + 24; omega
  | ⟨3, _⟩ => show win3_1.index t (3 : Fin 4) * 24 ≤ (i 3).val ∧ (i 3).val < win3_1.index t (3 : Fin 4) * 24 + 24; omega

/-- After the region its output array is the window maximum of its input array as the region found it. -/
theorem final (c : Dev nD) : (dat3 (F := Ideal) V c).arrAt 1 cfg3.N = Spec.windowMax3 (V c main_arg3) :=
  (dat3 (F := Ideal) V c).arrAt_eq_of_cover 1 (Spec.windowMax3 (V c main_arg3)) (fun t _ => flushed_eq V c t) cover

end Cert.KernelIdeal.Pool3

end
-- ==== Proof.Combine.lean ====
/-
  The last region: relu of the sum of the feed-forward term and the four pooled arrays, each pooled array repeated
  along the channel axis.

  At grid point b the body sees batch element b of every operand. It stacks the [C, 24, 24] pooled block 256/C times
  along the channels — so channel ch of the stack is channel (ch mod C) of the block —, adds the four stacks to the
  [256, 24, 24] feed-forward block one after the other, and takes the maximum with zero. The output blocks are the
  [1, 256, 24, 24] slices of the [16, 256, 24, 24] array, one per batch element, so after the region the whole array
  is that function of the region's five input arrays, entry by entry.
-/
import proofs.«171771_j88167088652743_2_alg».proof.Proof.Gen.KernelIdeal.Frame
import proofs.«171771_j88167088652743_2_alg».proof.Proof.LibMaxFold
import Idealize.ShloMosaic.Lib.Pipeline.Value
import Idealize.ShloMosaic.Lib.ValueIdx
import proofs.«171771_j88167088652743_2_alg».proof.Proof.Spec

set_option maxRecDepth 16384

noncomputable section

namespace Cert.KernelIdeal.Combine

open Cert.KernelIdeal Cert.KernelIdeal.Gen Idealize.ShloMosaic Idealize.ShloMosaic.TcCoe Idealize.SL.Sem
open Idealize.ShloMosaic.ValueIdx
open Idealize.ShloMosaic.Pipeline (Dat)
open Cert.LibMaxFold

/-! ## What the body stores, at an entry -/

/-- 2 copies of a [128, 24, 24] array stacked along the channel axis, read at channel `ch`: the array at channel
    `ch mod 128`. -/
theorem tile128_apply (v : S1x128x24x24.Idx → EReal) (hs : S1x128x24x24.ShapeCasts S128x24x24)
    (h : Shape.Concatenates ((List.replicate 2 (⟨S128x24x24, shapeCast S128x24x24 v hs⟩ : (s : Shape) × (s.Idx → EReal))).map (·.1)) S256x24x24 0)
    (ch : Fin 256) (y x : Fin 24) :
    concatenate S256x24x24 0 (List.replicate 2 (⟨S128x24x24, shapeCast S128x24x24 v hs⟩ : (s : Shape) × (s.Idx → EReal))) h (ix3 ch y x)
      = v (ix4 (0 : Fin 1) (⟨ch.val % 128, Nat.mod_lt _ (by decide)⟩ : Fin 128) y x) := by
  refine (concatenate_replicate_apply (t := S256x24x24) (s₁ := S128x24x24) (0 : Fin 3) 2 (shapeCast S128x24x24 v hs) h rfl (ix3 ch y x)
    (ix3 (⟨ch.val % 128, Nat.mod_lt _ (by decide)⟩ : Fin 128) y x) rfl ?_).trans ?_
  · intro b hb
    match b with
    | ⟨0, _⟩ => exact absurd rfl hb
    | ⟨1, _⟩ => rfl
    | ⟨2, _⟩ => rfl
  refine shapeCast_apply _ _ (ix3 (⟨ch.val % 128, Nat.mod_lt _ (by decide)⟩ : Fin 128) y x)
    (ix4 (0 : Fin 1) (⟨ch.val % 128, Nat.mod_lt _ (by decide)⟩ : Fin 128) y x) ?_
  rw [Shape.rowMajor_val_three, Shape.rowMajor_val_four]
  show ((0 * 128 + ch.val % 128) * 24 + y.val) * 24 + x.val = (ch.val % 128 * 24 + y.val) * 24 + x.val
  omega

/-- 4 copies of a [64, 24, 24] array stacked along the channel axis, read at channel `ch`: the array at channel
    `ch mod 64`. -/
theorem tile64_apply (v : S1x64x24x24.Idx → EReal) (hs : S1x64x24x24.ShapeCasts S64x24x24)
    (h : Shape.Concatenates ((List.replicate 4 (⟨S64x24x24, shapeCast S64x24x24 v hs⟩ : (s : Shape) × (s.Idx → EReal))).map (·.1)) S256x24x24 0)
    (ch : Fin 256) (y x : Fin 24) :
    concatenate S256x24x24 0 (List.replicate 4 (⟨S64x24x24, shapeCast S64x24x24 v hs⟩ : (s : Shape) × (s.Idx → EReal))) h (ix3 ch y x)
      = v (ix4 (0 : Fin 1) (⟨ch.val % 64, Nat.mod_lt _ (by decide)⟩ : Fin 64) y x) := by
  refine (concatenate_replicate_apply (t := S256x24x24) (s₁ := S64x24x24) (0 : Fin 3) 4 (shapeCast S64x24x24 v hs) h rfl (ix3 ch y x)
    (ix3 (⟨ch.val % 64, Nat.mod_lt _ (by decide)⟩ : Fin 64) y x) rfl ?_).trans ?_
  · intro b hb
    match b with
    | ⟨0, _⟩ => exact absurd rfl hb
    | ⟨1, _⟩ => rfl
    | ⟨2, _⟩ => rfl
  refine shapeCast_apply _ _ (ix3 (⟨ch.val % 64, Nat.mod_lt _ (by decide)⟩ : Fin 64) y x)
    (ix4 (0 : Fin 1) (⟨ch.val % 64, Nat.mod_lt _ (by decide)⟩ : Fin 64) y x) ?_
  rw [Shape.rowMajor_val_three, Shape.rowMajor_val_four]
  show ((0 * 64 + ch.val % 64) * 24 + y.val) * 24 + x.val = (ch.val % 64 * 24 + y.val) * 24 + x.val
  omega

/-- 8 copies of a [32, 24, 24] array stacked along the channel axis, read at channel `ch`: the array at channel
    `ch mod 32`. -/
theorem tile32_apply (v : S1x32x24x24.Idx → EReal) (hs : S1x32x24x24.ShapeCasts S32x24x24)
    (h : Shape.Concatenates ((List.replicate 8 (⟨S32x24x24, shapeCast S32x24x24 v hs⟩ : (s : Shape) × (s.Idx → EReal))).map (·.1)) S256x24x24 0)
    (ch : Fin 256) (y x : Fin 24) :
    concatenate S256x24x24 0 (List.replicate 8 (⟨S32x24x24, shapeCast S32x24x24 v hs⟩ : (s : Shape) × (s.Idx → EReal))) h (ix3 ch y x)
      = v (ix4 (0 : Fin 1) (⟨ch.val % 32, Nat.mod_lt _ (by decide)⟩ : Fin 32) y x) := by
  refine (concatenate_replicate_apply (t := S256x24x24) (s₁ := S32x24x24) (0 : Fin 3) 8 (shapeCast S32x24x24 v hs) h rfl (ix3 ch y x)
    (ix3 (⟨ch.val % 32, Nat.mod_lt _ (by decide)⟩ : Fin 32) y x) rfl ?_).trans ?_
  · intro b hb
    match b with
    | ⟨0, _⟩ => exact absurd rfl hb
    | ⟨1, _⟩ => rfl
    | ⟨2, _⟩ => rfl
  refine shapeCast_apply _ _ (ix3 (⟨ch.val % 32, Nat.mod_lt _ (by decide)⟩ : Fin 32) y x)
    (ix4 (0 : Fin 1) (⟨ch.val % 32, Nat.mod_lt _ (by decide)⟩ : Fin 32) y x) ?_
  rw [Shape.rowMajor_val_three, Shape.rowMajor_val_four]
  show ((0 * 32 + ch.val % 32) * 24 + y.val) * 24 + x.val = (ch.val % 32 * 24 + y.val) * 24 + x.val
  omega

/-- 16 copies of a [16, 24, 24] array stacked along the channel axis, read at channel `ch`: the array at channel
    `ch mod 16`. -/
theorem tile16_apply (v : S1x16x24x24.Idx → EReal) (hs : S1x16x24x24.ShapeCasts S16x24x24)
    (h : Shape.Concatenates ((List.replicate 16 (⟨S16x24x24, shapeCast S16x24x24 v hs⟩ : (s : Shape) × (s.Idx → EReal))).map (·.1)) S256x24x24 0)
    (ch : Fin 256) (y x : Fin 24) :
    concatenate S256x24x24 0 (List.replicate 16 (⟨S16x24x24, shapeCast S16x24x24 v hs⟩ : (s : Shape) × (s.Idx → EReal))) h (ix3 ch y x)
      = v (ix4 (0 : Fin 1) (⟨ch.val % 16, Nat.mod_lt _ (by decide)⟩ : Fin 16) y x) := by
  refine (concatenate_replicate_apply (t := S256x24x24) (s₁ := S16x24x24) (0 : Fin 3) 16 (shapeCast S16x24x24 v hs) h rfl (ix3 ch y x)
    (ix3 (⟨ch.val % 16, Nat.mod_lt _ (by decide)⟩ : Fin 16) y x) rfl ?_).trans ?_
  · intro b hb
    match b with
    | ⟨0, _⟩ => exact absurd rfl hb
    | ⟨1, _⟩ => rfl
    | ⟨2, _⟩ => rfl
  refine shapeCast_apply _ _ (ix3 (⟨ch.val % 16, Nat.mod_lt _ (by decide)⟩ : Fin 16) y x)
    (ix4 (0 : Fin 1) (⟨ch.val % 16, Nat.mod_lt _ (by decide)⟩ : Fin 16) y x) ?_
  rw [Shape.rowMajor_val_three, Shape.rowMajor_val_four]
  show ((0 * 16 + ch.val % 16) * 24 + y.val) * 24 + x.val = (ch.val % 16 * 24 + y.val) * 24 + x.val
  omega

/-- The maximum with a splat of a sum of five arrays, at an entry. -/
theorem relu_sum_apply {s : Shape} (a b c d e : FVec Ideal s .f32) (z : Ideal .f32) (i : s.Idx) :
    maximumf (addf (addf (addf (addf a b) c) d) e) (broadcast s z) i = max ((((a i + b i) + c i) + d i) + e i) z := rfl

/-- The stored block at `(0, ch, y, x)` from the five loaded blocks. -/
theorem payload_apply (ff : S1x256x24x24.Idx → EReal) (p1 : S1x128x24x24.Idx → EReal) (p2 : S1x64x24x24.Idx → EReal)
    (p3 : S1x32x24x24.Idx → EReal) (p4 : S1x16x24x24.Idx → EReal) (ch : Fin 256) (y x : Fin 24) :
    k4_pay1 (F := Ideal) ff p1 p2 p3 p4 (ix4 (0 : Fin 1) ch y x)
      = max ((((ff (ix4 (0 : Fin 1) ch y x) + p1 (ix4 (0 : Fin 1) (⟨ch.val % 128, Nat.mod_lt _ (by decide)⟩ : Fin 128) y x)) + p2 (ix4 (0 : Fin 1) (⟨ch.val % 64, Nat.mod_lt _ (by decide)⟩ : Fin 64) y x))
          + p3 (ix4 (0 : Fin 1) (⟨ch.val % 32, Nat.mod_lt _ (by decide)⟩ : Fin 32) y x)) + p4 (ix4 (0 : Fin 1) (⟨ch.val % 16, Nat.mod_lt _ (by decide)⟩ : Fin 16) y x)) (Ideal.ofBits .f32 0x00000000#32) := by
  unfold k4_pay1
  first | dsimp only | skip
  refine (shapeCast_apply _ _ (ix4 (0 : Fin 1) ch y x) (ix3 ch y x) ?_).trans ?_
  · rw [Shape.rowMajor_val_three, Shape.rowMajor_val_four]
    show (ch.val * 24 + y.val) * 24 + x.val = ((0 * 256 + ch.val) * 24 + y.val) * 24 + x.val
    omega
  refine (relu_sum_apply _ _ _ _ _ _ (ix3 ch y x)).trans ?_
  refine congrArg₂ max ?_ rfl
  refine congrArg₂ (fun s t => s + t) (congrArg₂ (fun s t => s + t) (congrArg₂ (fun s t => s + t)
    (congrArg₂ (fun s t => s + t) ?_ ?_) ?_) ?_) ?_
  · refine shapeCast_apply _ _ (ix3 ch y x) (ix4 (0 : Fin 1) ch y x) ?_
    rw [Shape.rowMajor_val_three, Shape.rowMajor_val_four]
    show ((0 * 256 + ch.val) * 24 + y.val) * 24 + x.val = (ch.val * 24 + y.val) * 24 + x.val
    omega
  · exact tile128_apply p1 _ _ ch y x
  · exact tile64_apply p2 _ _ ch y x
  · exact tile32_apply p3 _ _ ch y x
  · exact tile16_apply p4 _ _ ch y x

/-- A point's stored block against the whole arrays: when each loaded block is batch element `q0` of its array, the
    stored entry `j` is the combined array at the entry `i` that `j` is written to. -/
theorem stored_entry (ff : S1x256x24x24.Idx → EReal) (p1 : S1x128x24x24.Idx → EReal) (p2 : S1x64x24x24.Idx → EReal)
    (p3 : S1x32x24x24.Idx → EReal) (p4 : S1x16x24x24.Idx → EReal)
    (P1 : S16x128x24x24.Idx → EReal) (P2 : S16x64x24x24.Idx → EReal) (P3 : S16x32x24x24.Idx → EReal)
    (P4 : S16x16x24x24.Idx → EReal) (FF : S16x256x24x24.Idx → EReal) (q0 : Fin 16)
    (hff : ∀ (u : Fin 1) (cc : Fin 256) (y x : Fin 24), ff (ix4 u cc y x) = FF (ix4 q0 cc y x))
    (h1 : ∀ (u : Fin 1) (cc : Fin 128) (y x : Fin 24), p1 (ix4 u cc y x) = P1 (ix4 q0 cc y x))
    (h2 : ∀ (u : Fin 1) (cc : Fin 64) (y x : Fin 24), p2 (ix4 u cc y x) = P2 (ix4 q0 cc y x))
    (h3 : ∀ (u : Fin 1) (cc : Fin 32) (y x : Fin 24), p3 (ix4 u cc y x) = P3 (ix4 q0 cc y x))
    (h4 : ∀ (u : Fin 1) (cc : Fin 16) (y x : Fin 24), p4 (ix4 u cc y x) = P4 (ix4 q0 cc y x))
    (j : S1x256x24x24.Idx) (i : S16x256x24x24.Idx)
    (e0 : (i 0).val = q0.val) (e1 : (i 1).val = (j 1).val) (e2 : (i 2).val = (j 2).val) (e3 : (i 3).val = (j 3).val) :
    k4_pay1 (F := Ideal) ff p1 p2 p3 p4 j = Spec.combine P1 P2 P3 P4 FF i := by
  obtain ⟨u, ch, y, x, rfl⟩ : ∃ (u : Fin 1) (ch : Fin 256) (y x : Fin 24), j = ix4 u ch y x := ⟨j 0, j 1, j 2, j 3, eq_ix4 j⟩
  obtain rfl : u = 0 := Subsingleton.elim _ _
  obtain ⟨b, ch', y', x', rfl⟩ : ∃ (b : Fin 16) (ch' : Fin 256) (y' x' : Fin 24), i = ix4 b ch' y' x' := ⟨i 0, i 1, i 2, i 3, eq_ix4 i⟩
  obtain rfl : b = q0 := Fin.ext e0
  obtain rfl : ch' = ch := Fin.ext e1
  obtain rfl : y' = y := Fin.ext e2
  obtain rfl : x' = x := Fin.ext e3
  rw [payload_apply, hff, h1, h2, h3, h4]
  rfl

/-! ## From the points' blocks to the array -/

variable (V : (c : Dev nD) → (b : Ref sig .tc) → Buf (Elt Ideal) ((c : Thread nD τ).loc b))

theorem zero_offsets : (![0, 0, 0, 0] : Fin 4 → Nat) = fun _ => 0 := funext fun a => by fin_cases a <;> rfl

/-- The printed index maps over the grid: every window's block of a point sits at the point's batch element, at
    the origin of the other three axes. -/
theorem index_maps : ∀ t : Fin cfg4.N,
    (win4_0.index t (0 : Fin 4) = win4_5.index t (0 : Fin 4) ∧ win4_0.index t (1 : Fin 4) = 0 ∧ win4_0.index t (2 : Fin 4) = 0 ∧ win4_0.index t (3 : Fin 4) = 0)
    ∧ (win4_1.index t (0 : Fin 4) = win4_5.index t (0 : Fin 4) ∧ win4_1.index t (1 : Fin 4) = 0 ∧ win4_1.index t (2 : Fin 4) = 0 ∧ win4_1.index t (3 : Fin 4) = 0)
    ∧ (win4_2.index t (0 : Fin 4) = win4_5.index t (0 : Fin 4) ∧ win4_2.index t (1 : Fin 4) = 0 ∧ win4_2.index t (2 : Fin 4) = 0 ∧ win4_2.index t (3 : Fin 4) = 0)
    ∧ (win4_3.index t (0 : Fin 4) = win4_5.index t (0 : Fin 4) ∧ win4_3.index t (1 : Fin 4) = 0 ∧ win4_3.index t (2 : Fin 4) = 0 ∧ win4_3.index t (3 : Fin 4) = 0)
    ∧ (win4_4.index t (0 : Fin 4) = win4_5.index t (0 : Fin 4) ∧ win4_4.index t (1 : Fin 4) = 0 ∧ win4_4.index t (2 : Fin 4) = 0 ∧ win4_4.index t (3 : Fin 4) = 0)
    ∧ (win4_5.index t (0 : Fin 4) ≤ 15 ∧ win4_5.index t (1 : Fin 4) = 0 ∧ win4_5.index t (2 : Fin 4) = 0 ∧ win4_5.index t (3 : Fin 4) = 0) :=
  (by decide +kernel : ∀ t : Fin grid4.N, _)

/-- Every batch element is some point's. -/
theorem index_onto : ∀ (q0 : Fin 16), ∃ t : Fin cfg4.N, win4_5.index t = ![q0.val, 0, 0, 0] :=
  (by decide +kernel : ∀ (q0 : Fin 16), ∃ t : Fin grid4.N, win4_5.index t = ![q0.val, 0, 0, 0])

/-- Input window 0's block at a point is the point's batch element of its array. -/
theorem block0 (c : Dev nD) (t : Fin cfg4.N) (hq : win4_5.index t (0 : Fin 4) < 16) (u : Fin 1) (cc : Fin 128) (y x : Fin 24) :
    iblk4 V c 0 t (ix4 u cc y x) = V c main_v0 (ix4 (⟨win4_5.index t (0 : Fin 4), hq⟩ : Fin 16) cc y x) := by
  obtain ⟨⟨a0, a1, a2, a3⟩, ⟨b0, b1, b2, b3⟩, ⟨c0, c1, c2, c3⟩, ⟨d0, d1, d2, d3⟩, ⟨f0, f1, f2, f3⟩, -⟩ := index_maps t
  show V c main_v0 (((cfg4.win 0).blk t).view.emb (ix4 u cc y x)) = _
  refine congrArg (V c main_v0) (funext fun a => Fin.ext ?_)
  match a with
  | ⟨0, _⟩ => show win4_0.index t (0 : Fin 4) * 1 + 1 * u.val = win4_5.index t (0 : Fin 4); omega
  | ⟨1, _⟩ => show win4_0.index t (1 : Fin 4) * 128 + 1 * cc.val = cc.val; omega
  | ⟨2, _⟩ => show win4_0.index t (2 : Fin 4) * 24 + 1 * y.val = y.val; omega
  | ⟨3, _⟩ => show win4_0.index t (3 : Fin 4) * 24 + 1 * x.val = x.val; omega

/-- Input window 1's block at a point is the point's batch element of its array. -/
theorem block1 (c : Dev nD) (t : Fin cfg4.N) (hq : win4_5.index t (0 : Fin 4) < 16) (u : Fin 1) (cc : Fin 64) (y x : Fin 24) :
    iblk4 V c 1 t (ix4 u cc y x) = V c main_v1 (ix4 (⟨win4_5.index t (0 : Fin 4), hq⟩ : Fin 16) cc y x) := by
  obtain ⟨⟨a0, a1, a2, a3⟩, ⟨b0, b1, b2, b3⟩, ⟨c0, c1, c2, c3⟩, ⟨d0, d1, d2, d3⟩, ⟨f0, f1, f2, f3⟩, -⟩ := index_maps t
  show V c main_v1 (((cfg4.win 1).blk t).view.emb (ix4 u cc y x)) = _
  refine congrArg (V c main_v1) (funext fun a => Fin.ext ?_)
  match a with
  | ⟨0, _⟩ => show win4_1.index t (0 : Fin 4) * 1 + 1 * u.val = win4_5.index t (0 : Fin 4); omega
  | ⟨1, _⟩ => show win4_1.index t (1 : Fin 4) * 64 + 1 * cc.val = cc.val; omega
  | ⟨2, _⟩ => show win4_1.index t (2 : Fin 4) * 24 + 1 * y.val = y.val; omega
  | ⟨3, _⟩ => show win4_1.index t (3 : Fin 4) * 24 + 1 * x.val = x.val; omega

/-- Input window 2's block at a point is the point's batch element of its array. -/
theorem block2 (c : Dev nD) (t : Fin cfg4.N) (hq : win4_5.index t (0 : Fin 4) < 16) (u : Fin 1) (cc : Fin 32) (y x : Fin 24) :
    iblk4 V c 2 t (ix4 u cc y x) = V c main_v2 (ix4 (⟨win4_5.index t (0 : Fin 4), hq⟩ : Fin 16) cc y x) := by
  obtain ⟨⟨a0, a1, a2, a3⟩, ⟨b0, b1, b2, b3⟩, ⟨c0, c1, c2, c3⟩, ⟨d0, d1, d2, d3⟩, ⟨f0, f1, f2, f3⟩, -⟩ := index_maps t
  show V c main_v2 (((cfg4.win 2).blk t).view.emb (ix4 u cc y x)) = _
  refine congrArg (V c main_v2) (funext fun a => Fin.ext ?_)
  match a with
  | ⟨0, _⟩ => show win4_2.index t (0 : Fin 4) * 1 + 1 * u.val = win4_5.index t (0 : Fin 4); omega
  | ⟨1, _⟩ => show win4_2.index t (1 : Fin 4) * 32 + 1 * cc.val = cc.val; omega
  | ⟨2, _⟩ => show win4_2.index t (2 : Fin 4) * 24 + 1 * y.val = y.val; omega
  | ⟨3, _⟩ => show win4_2.index t (3 : Fin 4) * 24 + 1 * x.val = x.val; omega

/-- Input window 3's block at a point is the point's batch element of its array. -/
theorem block3 (c : Dev nD) (t : Fin cfg4.N) (hq : win4_5.index t (0 : Fin 4) < 16) (u : Fin 1) (cc : Fin 16) (y x : Fin 24) :
    iblk4 V c 3 t (ix4 u cc y x) = V c main_v3 (ix4 (⟨win4_5.index t (0 : Fin 4), hq⟩ : Fin 16) cc y x) := by
  obtain ⟨⟨a0, a1, a2, a3⟩, ⟨b0, b1, b2, b3⟩, ⟨c0, c1, c2, c3⟩, ⟨d0, d1, d2, d3⟩, ⟨f0, f1, f2, f3⟩, -⟩ := index_maps t
  show V c main_v3 (((cfg4.win 3).blk t).view.emb (ix4 u cc y x)) = _
  refine congrArg (V c main_v3) (funext fun a => Fin.ext ?_)
  match a with
  | ⟨0, _⟩ => show win4_3.index t (0 : Fin 4) * 1 + 1 * u.val = win4_5.index t (0 : Fin 4); omega
  | ⟨1, _⟩ => show win4_3.index t (1 : Fin 4) * 16 + 1 * cc.val = cc.val; omega
  | ⟨2, _⟩ => show win4_3.index t (2 : Fin 4) * 24 + 1 * y.val = y.val; omega
  | ⟨3, _⟩ => show win4_3.index t (3 : Fin 4) * 24 + 1 * x.val = x.val; omega

/-- Input window 4's block at a point is the point's batch element of its array. -/
theorem block4 (c : Dev nD) (t : Fin cfg4.N) (hq : win4_5.index t (0 : Fin 4) < 16) (u : Fin 1) (cc : Fin 256) (y x : Fin 24) :
    iblk4 V c 4 t (ix4 u cc y x) = V c main_arg4 (ix4 (⟨win4_5.index t (0 : Fin 4), hq⟩ : Fin 16) cc y x) := by
  obtain ⟨⟨a0, a1, a2, a3⟩, ⟨b0, b1, b2, b3⟩, ⟨c0, c1, c2, c3⟩, ⟨d0, d1, d2, d3⟩, ⟨f0, f1, f2, f3⟩, -⟩ := index_maps t
  show V c main_arg4 (((cfg4.win 4).blk t).view.emb (ix4 u cc y x)) = _
  refine congrArg (V c main_arg4) (funext fun a => Fin.ext ?_)
  match a with
  | ⟨0, _⟩ => show win4_4.index t (0 : Fin 4) * 1 + 1 * u.val = win4_5.index t (0 : Fin 4); omega
  | ⟨1, _⟩ => show win4_4.index t (1 : Fin 4) * 256 + 1 * cc.val = cc.val; omega
  | ⟨2, _⟩ => show win4_4.index t (2 : Fin 4) * 24 + 1 * y.val = y.val; omega
  | ⟨3, _⟩ => show win4_4.index t (3 : Fin 4) * 24 + 1 * x.val = x.val; omega

/-- What point `t` writes back is block `t` of the combined array of the region's input arrays. -/
theorem flushed_eq (c : Dev nD) (t : Fin cfg4.N) :
    (dat4 (F := Ideal) V c).flushed 5 t = ((cfg4.win 5).blk t).view.read (Elt Ideal)
      (Spec.combine (V c main_v0) (V c main_v1) (V c main_v2) (V c main_v3) (V c main_arg4)) := by
  show (cfg4.win 5).cut (grid4.coords t) ((dat4 (F := Ideal) V c).after 5 t) = _
  rw [after4_5]
  unfold out4_5
  rw [View.canon_unit_zero zero_offsets]
  simp only [View.ld_unit_zero (S := S1x256x24x24) zero_offsets, View.ld_unit_zero (S := S1x128x24x24) zero_offsets,
    View.ld_unit_zero (S := S1x64x24x24) zero_offsets, View.ld_unit_zero (S := S1x32x24x24) zero_offsets,
    View.ld_unit_zero (S := S1x16x24x24) zero_offsets]
  obtain ⟨-, -, -, -, -, ⟨g0, g1, g2, g3⟩⟩ := index_maps t
  have hq : win4_5.index t (0 : Fin 4) < 16 := by omega
  funext j
  show k4_pay1 (F := Ideal) (iblk4 V c 4 t) (iblk4 V c 0 t) (iblk4 V c 1 t) (iblk4 V c 2 t) (iblk4 V c 3 t) j
    = Spec.combine (V c main_v0) (V c main_v1) (V c main_v2) (V c main_v3) (V c main_arg4) (((cfg4.win 5).blk t).view.emb j)
  refine stored_entry (iblk4 V c 4 t) (iblk4 V c 0 t) (iblk4 V c 1 t) (iblk4 V c 2 t) (iblk4 V c 3 t)
    (V c main_v0) (V c main_v1) (V c main_v2) (V c main_v3) (V c main_arg4) (⟨win4_5.index t (0 : Fin 4), hq⟩ : Fin 16)
    (block4 V c t hq) (block0 V c t hq) (block1 V c t hq) (block2 V c t hq) (block3 V c t hq)
    j (((cfg4.win 5).blk t).view.emb j) ?_ ?_ ?_ ?_
  · show win4_5.index t (0 : Fin 4) * 1 + 1 * (j 0).val = win4_5.index t (0 : Fin 4)
    have hj : (j 0).val < 1 := (j 0).isLt
    omega
  · show win4_5.index t (1 : Fin 4) * 256 + 1 * (j 1).val = (j 1).val
    omega
  · show win4_5.index t (2 : Fin 4) * 24 + 1 * (j 2).val = (j 2).val
    omega
  · show win4_5.index t (3 : Fin 4) * 24 + 1 * (j 3).val = (j 3).val
    omega

/-- An entry of the output array is in point `t`'s block iff each coordinate is in the block's range on its axis. -/
theorem mem_blk (t : Fin cfg4.N) (i : S16x256x24x24.Idx) :
    i ∈ ((cfg4.win 5).blk t).view.set ↔ ∀ a : Fin 4, win4_5.index t a * S1x256x24x24.size a ≤ (i a).val
      ∧ (i a).val < win4_5.index t a * S1x256x24x24.size a + S1x256x24x24.size a := by
  show i ∈ ((View.whole main_v4).slice (win4_5.rect t)).set ↔ _
  rw [View.set_slice_whole, Rect.mem_set_unit]
  exact Iff.rfl

/-- Every entry of the output array is in the block of the point of its batch element. -/
theorem cover (i : S16x256x24x24.Idx) : ∃ t : Fin cfg4.N, (cfg4.win 5).flush t = true ∧ i ∈ ((cfg4.win 5).blk t).view.set := by
  have hi0 : (i 0).val < 16 := (i 0).isLt
  have hi1 : (i 1).val < 256 := (i 1).isLt
  have hi2 : (i 2).val < 24 := (i 2).isLt
  have hi3 : (i 3).val < 24 := (i 3).isLt
  obtain ⟨t, ht⟩ := index_onto ⟨(i 0).val, hi0⟩
  have q0 : win4_5.index t (0 : Fin 4) = (i 0).val := congrFun ht 0
  have q1 : win4_5.index t (1 : Fin 4) = 0 := congrFun ht 1
  have q2 : win4_5.index t (2 : Fin 4) = 0 := congrFun ht 2
  have q3 : win4_5.index t (3 : Fin 4) = 0 := congrFun ht 3
  refine ⟨t, flush4_5 t, ?_⟩
  rw [mem_blk]
  intro a
  match a with
  | ⟨0, _⟩ => show win4_5.index t (0 : Fin 4) * 1 ≤ (i 0).val ∧ (i 0).val < win4_5.index t (0 : Fin 4) * 1 + 1; omega
  | ⟨1, _⟩ => show win4_5.index t (1 : Fin 4) * 256 ≤ (i 1).val ∧ (i 1).val < win4_5.index t (1 : Fin 4) * 256 + 256; omega
  | ⟨2, _⟩ => show win4_5.index t (2 : Fin 4) * 24 ≤ (i 2).val ∧ (i 2).val < win4_5.index t (2 : Fin 4) * 24 + 24; omega
  | ⟨3, _⟩ => show win4_5.index t (3 : Fin 4) * 24 ≤ (i 3).val ∧ (i 3).val < win4_5.index t (3 : Fin 4) * 24 + 24; omega

/-- After the region its output array is the combined array of its five input arrays as the region found them. -/
theorem final (c : Dev nD) : (dat4 (F := Ideal) V c).arrAt 5 cfg4.N
    = Spec.combine (V c main_v0) (V c main_v1) (V c main_v2) (V c main_v3) (V c main_arg4) :=
  (dat4 (F := Ideal) V c).arrAt_eq_of_cover 5 (Spec.combine (V c main_v0) (V c main_v1) (V c main_v2) (V c main_v3) (V c main_arg4))
    (fun t _ => flushed_eq V c t) cover

end Cert.KernelIdeal.Combine

end
-- ==== Proof.KernelRun.lean ====
/-
  The kernel's run, with its result named.

  The program is five regions in a row. Each region leaves its output array at one function of the arrays it found
  (the four window maxima, then the combination), writes nothing else, and the five inputs are never written. Reading
  the last region's output back through the five region boundaries therefore gives the result as the combination of
  the four window maxima of the launch contents of the inputs and the launch contents of the feed-forward term: pooled
  array K is written by region K and only read afterwards, and input K is as launched when region K reads it.
  The run itself is the several-regions launch over the generated segments, its final memory read at the result buffer
  as well as at the five inputs.
-/
import proofs.«171771_j88167088652743_2_alg».proof.Proof.Gen.KernelIdeal.Frame
import proofs.«171771_j88167088652743_2_alg».proof.Proof.Spec
import proofs.«171771_j88167088652743_2_alg».proof.Proof.Pool0
import proofs.«171771_j88167088652743_2_alg».proof.Proof.Pool1
import proofs.«171771_j88167088652743_2_alg».proof.Proof.Pool2
import proofs.«171771_j88167088652743_2_alg».proof.Proof.Pool3
import proofs.«171771_j88167088652743_2_alg».proof.Proof.Combine

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The result array on core `c`: the combination of the four window maxima of the inputs and the feed-forward term,
    all at their launch contents. -/
def result (c : Dev nD) : (⟨4, ![16, 256, 24, 24]⟩ : Shape).Idx → EReal :=
  Spec.combine (Spec.windowMax0 (m ((c.tc : Thread nD τ).loc main_arg0))) (Spec.windowMax1 (m ((c.tc : Thread nD τ).loc main_arg1)))
    (Spec.windowMax2 (m ((c.tc : Thread nD τ).loc main_arg2))) (Spec.windowMax3 (m ((c.tc : Thread nD τ).loc main_arg3))) (m ((c.tc : Thread nD τ).loc main_arg4))

/-! ## The arrays the last region finds -/

/-- The first pooled array, written by region 0 and untouched by regions 1, 2, 3. -/
theorem pooled0 (c : Dev nD) : W4 m ρ c (Proc.devRef .tc main_v0) = Spec.windowMax0 (m ((c.tc : Thread nD τ).loc main_arg0)) :=
  calc W4 m ρ c (Proc.devRef .tc main_v0)
    _ = W3 m ρ c (Proc.devRef .tc main_v0) := W4_of_ne m ρ c main_v0 (by decide)
    _ = W2 m ρ c (Proc.devRef .tc main_v0) := W3_of_ne m ρ c main_v0 (by decide)
    _ = W1 m ρ c (Proc.devRef .tc main_v0) := W2_of_ne m ρ c main_v0 (by decide)
    _ = (dat0 (V0 m ρ) c).arrAt 1 cfg0.N := W1_arr m ρ c 1
    _ = Spec.windowMax0 (V0 m ρ c main_arg0) := Pool0.final (V0 m ρ) c
    _ = Spec.windowMax0 (m ((c.tc : Thread nD τ).loc main_arg0)) := rfl

/-- The second pooled array, written by region 1 from an input region 0 did not touch. -/
theorem pooled1 (c : Dev nD) : W4 m ρ c (Proc.devRef .tc main_v1) = Spec.windowMax1 (m ((c.tc : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := W3_of_ne m ρ c main_v1 (by decide)
    _ = (dat1 (V1 m ρ) c).arrAt 1 cfg1.N := W2_arr m ρ c 1
    _ = Spec.windowMax1 (V1 m ρ c main_arg1) := Pool1.final (V1 m ρ) c
    _ = Spec.windowMax1 (m ((c.tc : Thread nD τ).loc main_arg1)) :=
      congrArg Spec.windowMax1 ((W1_of_ne m ρ c main_arg1 (by decide)).trans rfl)

/-- The third pooled array, written by region 2 from an input regions 0 and 1 did not touch. -/
theorem pooled2 (c : Dev nD) : W4 m ρ c (Proc.devRef .tc main_v2) = Spec.windowMax2 (m ((c.tc : Thread nD τ).loc main_arg2)) :=
  calc W4 m ρ c (Proc.devRef .tc main_v2)
    _ = W3 m ρ c (Proc.devRef .tc main_v2) := W4_of_ne m ρ c main_v2 (by decide)
    _ = (dat2 (V2 m ρ) c).arrAt 1 cfg2.N := W3_arr m ρ c 1
    _ = Spec.windowMax2 (V2 m ρ c main_arg2) := Pool2.final (V2 m ρ) c
    _ = Spec.windowMax2 (m ((c.tc : Thread nD τ).loc main_arg2)) :=
      congrArg Spec.windowMax2 ((W2_of_ne m ρ c main_arg2 (by decide)).trans
        ((W1_of_ne m ρ c main_arg2 (by decide)).trans rfl))

/-- The fourth pooled array, written by region 3 from an input regions 0, 1, 2 did not touch. -/
theorem pooled3 (c : Dev nD) : W4 m ρ c (Proc.devRef .tc main_v3) = Spec.windowMax3 (m ((c.tc : Thread nD τ).loc main_arg3)) :=
  calc W4 m ρ c (Proc.devRef .tc main_v3)
    _ = (dat3 (V3 m ρ) c).arrAt 1 cfg3.N := W4_arr m ρ c 1
    _ = Spec.windowMax3 (V3 m ρ c main_arg3) := Pool3.final (V3 m ρ) c
    _ = Spec.windowMax3 (m ((c.tc : Thread nD τ).loc main_arg3)) :=
      congrArg Spec.windowMax3 ((W3_of_ne m ρ c main_arg3 (by decide)).trans
        ((W2_of_ne m ρ c main_arg3 (by decide)).trans ((W1_of_ne m ρ c main_arg3 (by decide)).trans rfl)))

/-- The feed-forward term, untouched by the four pooling regions. -/
theorem feedforward (c : Dev nD) : W4 m ρ c (Proc.devRef .tc main_arg4) = m ((c.tc : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c.tc : Thread nD τ).loc main_arg4) := rfl

/-- After the last region the result buffer holds the result array. -/
theorem result_eq (c : Dev nD) : W5 m ρ c (Proc.devRef .tc main_v4) = result m c :=
  calc W5 m ρ c (Proc.devRef .tc main_v4)
    _ = (dat4 (V4 m ρ) c).arrAt 5 cfg4.N := W5_arr m ρ c 5
    _ = Spec.combine (V4 m ρ c main_v0) (V4 m ρ c main_v1) (V4 m ρ c main_v2) (V4 m ρ c main_v3) (V4 m ρ c main_arg4) :=
      Combine.final (V4 m ρ) c
    _ = result m c :=
      congr (congr (congr (congr (congrArg Spec.combine (pooled0 m ρ c)) (pooled1 m ρ c)) (pooled2 m ρ c)) (pooled3 m ρ c))
        (feedforward m ρ c)

/-! ## The run -/

set_option backward.isDefEq.respectTransparency.types false in
/-- Every weakly fair execution of the program terminates, nothing faulting, with the result buffer at the result array
    and the five inputs as launched. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v4 (by decide))).trans (result_eq m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.KernelRun

end
-- ==== Proof.LibRank8.lean ====
/-
  Rank-8 indices by coordinates.

  An index of a rank-8 array is the tuple of its eight coordinates, and its row-major position is the nested sum of
  products of those coordinates with the trailing extents — the rank-8 members of the families the library states up
  to rank 6. A reshape is read at an index by equating two such positions.
-/
import Idealize.ShloMosaic.Lib.ValueIdx

namespace Cert.LibRank8

open Idealize.ShloMosaic

/-- A rank-8 index from its coordinates. -/
abbrev ix8 {n0 n1 n2 n3 n4 n5 n6 n7 : Nat} (a : Fin n0) (b : Fin n1) (c : Fin n2) (d : Fin n3) (e : Fin n4) (f : Fin n5)
    (g : Fin n6) (h : Fin n7) : (⟨8, ![n0, n1, n2, n3, n4, n5, n6, n7]⟩ : Shape).Idx :=
  fun x => match x with
    | ⟨0, _⟩ => a | ⟨1, _⟩ => b | ⟨2, _⟩ => c | ⟨3, _⟩ => d | ⟨4, _⟩ => e | ⟨5, _⟩ => f | ⟨6, _⟩ => g | ⟨7, _⟩ => h

/-- Every rank-8 index is `ix8` of its coordinates. -/
theorem eq_ix8 {n0 n1 n2 n3 n4 n5 n6 n7 : Nat} (j : (⟨8, ![n0, n1, n2, n3, n4, n5, n6, n7]⟩ : Shape).Idx) :
    j = ix8 (j 0) (j 1) (j 2) (j 3) (j 4) (j 5) (j 6) (j 7) := by
  funext x
  match x with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

end Cert.LibRank8
-- ==== Proof.RefPool.lean ====
/-
  The reference's pooled and repeated arrays, read at an entry.

  The reference pools each input with one window reduction — a left fold of `max` over the k·k positions of the window in
  row-major order, from minus infinity — and repeats the pooled [16, C, 24, 24] array 256/C times along the channels by a
  reshape to rank 8, a broadcast along a new axis, and a reshape back. The first is the supremum of the window (a fold
  of `max` from the bottom and a supremum have the same upper bounds); the second reads channel `ch mod C`.
-/
import proofs.«171771_j88167088652743_2_alg».proof.Proof.Spec
import proofs.«171771_j88167088652743_2_alg».proof.Proof.LibMaxFold
import proofs.«171771_j88167088652743_2_alg».proof.Proof.LibRank8
import Idealize.ShloMosaic.Lib.Pipeline.Value

set_option maxRecDepth 16384

noncomputable section

namespace Cert.RefPool

open Idealize.ShloMosaic Idealize.ShloMosaic.ValueIdx
open Cert.LibMaxFold Cert.LibRank8

/-! ## The 2×2 window of a [16, 128, 48, 48] array -/

/-- The host's window reduction with `maximumf` from an initial value that is the bottom — windows 2×2 on the two
    image axes, strides equal to the windows, no padding —, read at `(b, c, o, p)`: the supremum of the window. Both
    sides have the same upper bounds: a left fold of `max` from the bottom lies under `C` exactly when every value it
    meets does, and the positions of the window are the pairs `(kh, kw)`. -/
theorem reduceWindow_max0 (X : (⟨4, ![16, 128, 48, 48]⟩ : Shape).Idx → EReal) (v : (⟨0, ![]⟩ : Shape).Idx → EReal) (hv : ∀ u, v u = ⊥)
    (h : (⟨4, ![16, 128, 48, 48]⟩ : Shape).ReduceWindows (![1, 1, 2, 2] : Fin 4 → Nat) ![1, 1, 2, 2] ![0, 0, 0, 0] ![0, 0, 0, 0] (⟨4, ![16, 128, 24, 24]⟩ : Shape))
    (hu : 0 < (⟨0, ![]⟩ : Shape).numel) (b : Fin 16) (c : Fin 128) (o p : Fin 24) :
    Host.reduceWindow (FloatOps.maximumf (F := Ideal) (φ := .f32)) ![1, 1, 2, 2] ![1, 1, 2, 2] ![0, 0, 0, 0] ![0, 0, 0, 0]
        X v h hu (ix4 b c o p)
      = Spec.windowMaxAt0 X b c o p := by
  unfold Host.reduceWindow Spec.windowMaxAt0
  dsimp only
  rw [hv]
  refine eq_of_forall_ge_iff fun C => ?_
  refine (foldl_max_le_iff _ C _ _).trans ?_
  simp only [bot_le, true_and, List.mem_finRange, forall_true_left, iSup_le_iff]
  constructor
  · intro hN kw kh
    have hn := hN ((⟨4, ![1, 1, 2, 2]⟩ : Shape).rowMajor (ix4 (0 : Fin 1) (0 : Fin 1) kh kw))
    simp only [Equiv.symm_apply_apply] at hn
    split at hn
    · refine le_of_eq_of_le (congrArg X (funext fun a => Fin.ext ?_)) hn
      match a with
      | ⟨0, _⟩ => show b.val = b.val * 1 + 0 - 0; omega
      | ⟨1, _⟩ => show c.val = c.val * 1 + 0 - 0; omega
      | ⟨2, _⟩ => show o.val * 2 + kh.val = o.val * 2 + kh.val - 0; omega
      | ⟨3, _⟩ => show p.val * 2 + kw.val = p.val * 2 + kw.val - 0; omega
    · rename_i hno
      refine absurd (fun a => ?_) hno
      match a with
      | ⟨0, _⟩ => show 0 ≤ b.val * 1 + 0 ∧ b.val * 1 + 0 - 0 < 16; omega
      | ⟨1, _⟩ => show 0 ≤ c.val * 1 + 0 ∧ c.val * 1 + 0 - 0 < 128; omega
      | ⟨2, _⟩ => show 0 ≤ o.val * 2 + kh.val ∧ o.val * 2 + kh.val - 0 < 48; omega
      | ⟨3, _⟩ => show 0 ≤ p.val * 2 + kw.val ∧ p.val * 2 + kw.val - 0 < 48; omega
  · intro hK n
    obtain ⟨w, rfl⟩ : ∃ w : (⟨4, ![1, 1, 2, 2]⟩ : Shape).Idx, n = (⟨4, ![1, 1, 2, 2]⟩ : Shape).rowMajor w := ⟨(⟨4, ![1, 1, 2, 2]⟩ : Shape).rowMajor.symm n, (Equiv.apply_symm_apply _ _).symm⟩
    simp only [Equiv.symm_apply_apply]
    have h0 : (w 0).val < 1 := (w 0).isLt
    have h1 : (w 1).val < 1 := (w 1).isLt
    split
    · refine le_of_eq_of_le (congrArg X (funext fun a => Fin.ext ?_)) (hK (w 3) (w 2))
      match a with
      | ⟨0, _⟩ => show b.val * 1 + (w 0).val - 0 = b.val; omega
      | ⟨1, _⟩ => show c.val * 1 + (w 1).val - 0 = c.val; omega
      | ⟨2, _⟩ => show o.val * 2 + (w 2).val - 0 = o.val * 2 + (w 2).val; omega
      | ⟨3, _⟩ => show p.val * 2 + (w 3).val - 0 = p.val * 2 + (w 3).val; omega
    · exact bot_le

/-- A [16, 128, 24, 24] array repeated 2 times along the channels — reshaped to rank 8 with unit axes, broadcast along
    the new axis of extent 2, reshaped to [16, 256, 24, 24] — read at channel `ch`: the array at channel `ch mod 128`
    (the row-major position of `(b, ch, y, x)` is that of `(b, ch / 128, ch mod 128, y, x)`). -/
theorem tiled0 (Y : (⟨4, ![16, 128, 24, 24]⟩ : Shape).Idx → EReal) (h1 : (⟨4, ![16, 128, 24, 24]⟩ : Shape).ShapeCasts (⟨8, ![1, 16, 1, 128, 1, 24, 1, 24]⟩ : Shape))
    (h2 : (⟨8, ![1, 16, 1, 128, 1, 24, 1, 24]⟩ : Shape).BroadcastsInDim (⟨8, ![1, 16, 2, 128, 1, 24, 1, 24]⟩ : Shape) (![0, 1, 2, 3, 4, 5, 6, 7] : Fin 8 → Fin 8))
    (h3 : (⟨8, ![1, 16, 2, 128, 1, 24, 1, 24]⟩ : Shape).ShapeCasts (⟨4, ![16, 256, 24, 24]⟩ : Shape)) (b : Fin 16) (ch : Fin 256) (y x : Fin 24) :
    shapeCast (⟨4, ![16, 256, 24, 24]⟩ : Shape) (broadcastInDim (⟨8, ![1, 16, 2, 128, 1, 24, 1, 24]⟩ : Shape) ![0, 1, 2, 3, 4, 5, 6, 7] h2 (shapeCast (⟨8, ![1, 16, 1, 128, 1, 24, 1, 24]⟩ : Shape) Y h1)) h3
        (ix4 b ch y x)
      = Y (ix4 b (⟨ch.val % 128, Nat.mod_lt _ (by decide)⟩ : Fin 128) y x) := by
  have hch : ch.val < 256 := ch.isLt
  refine (shapeCast_apply _ _ (ix4 b ch y x)
    (ix8 (0 : Fin 1) b (⟨ch.val / 128, by omega⟩ : Fin 2) (⟨ch.val % 128, Nat.mod_lt _ (by decide)⟩ : Fin 128) (0 : Fin 1) y (0 : Fin 1) x) ?_).trans ?_
  · rw [rowMajor_val_eight, Shape.rowMajor_val_four]
    show ((((((0 * 16 + b.val) * 2 + ch.val / 128) * 128 + ch.val % 128) * 1 + 0) * 24 + y.val) * 1 + 0) * 24 + x.val
      = ((b.val * 256 + ch.val) * 24 + y.val) * 24 + x.val
    omega
  refine (broadcastInDim_apply _ _ _ (ix8 (0 : Fin 1) b (⟨ch.val / 128, by omega⟩ : Fin 2) (⟨ch.val % 128, Nat.mod_lt _ (by decide)⟩ : Fin 128) (0 : Fin 1) y (0 : Fin 1) x)
    (ix8 (0 : Fin 1) b (0 : Fin 1) (⟨ch.val % 128, Nat.mod_lt _ (by decide)⟩ : Fin 128) (0 : Fin 1) y (0 : Fin 1) x) ?_).trans ?_
  · intro a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
  refine shapeCast_apply _ _ (ix8 (0 : Fin 1) b (0 : Fin 1) (⟨ch.val % 128, Nat.mod_lt _ (by decide)⟩ : Fin 128) (0 : Fin 1) y (0 : Fin 1) x) (ix4 b (⟨ch.val % 128, Nat.mod_lt _ (by decide)⟩ : Fin 128) y x) ?_
  rw [Shape.rowMajor_val_four, rowMajor_val_eight]
  show ((b.val * 128 + ch.val % 128) * 24 + y.val) * 24 + x.val
    = ((((((0 * 16 + b.val) * 1 + 0) * 128 + ch.val % 128) * 1 + 0) * 24 + y.val) * 1 + 0) * 24 + x.val
  omega

/-! ## The 4×4 window of a [16, 64, 96, 96] array -/

/-- The host's window reduction with `maximumf` from an initial value that is the bottom — windows 4×4 on the two
    image axes, strides equal to the windows, no padding —, read at `(b, c, o, p)`: the supremum of the window. Both
    sides have the same upper bounds: a left fold of `max` from the bottom lies under `C` exactly when every value it
    meets does, and the positions of the window are the pairs `(kh, kw)`. -/
theorem reduceWindow_max1 (X : (⟨4, ![16, 64, 96, 96]⟩ : Shape).Idx → EReal) (v : (⟨0, ![]⟩ : Shape).Idx → EReal) (hv : ∀ u, v u = ⊥)
    (h : (⟨4, ![16, 64, 96, 96]⟩ : Shape).ReduceWindows (![1, 1, 4, 4] : Fin 4 → Nat) ![1, 1, 4, 4] ![0, 0, 0, 0] ![0, 0, 0, 0] (⟨4, ![16, 64, 24, 24]⟩ : Shape))
    (hu : 0 < (⟨0, ![]⟩ : Shape).numel) (b : Fin 16) (c : Fin 64) (o p : Fin 24) :
    Host.reduceWindow (FloatOps.maximumf (F := Ideal) (φ := .f32)) ![1, 1, 4, 4] ![1, 1, 4, 4] ![0, 0, 0, 0] ![0, 0, 0, 0]
        X v h hu (ix4 b c o p)
      = Spec.windowMaxAt1 X b c o p := by
  unfold Host.reduceWindow Spec.windowMaxAt1
  dsimp only
  rw [hv]
  refine eq_of_forall_ge_iff fun C => ?_
  refine (foldl_max_le_iff _ C _ _).trans ?_
  simp only [bot_le, true_and, List.mem_finRange, forall_true_left, iSup_le_iff]
  constructor
  · intro hN kw kh
    have hn := hN ((⟨4, ![1, 1, 4, 4]⟩ : Shape).rowMajor (ix4 (0 : Fin 1) (0 : Fin 1) kh kw))
    simp only [Equiv.symm_apply_apply] at hn
    split at hn
    · refine le_of_eq_of_le (congrArg X (funext fun a => Fin.ext ?_)) hn
      match a with
      | ⟨0, _⟩ => show b.val = b.val * 1 + 0 - 0; omega
      | ⟨1, _⟩ => show c.val = c.val * 1 + 0 - 0; omega
      | ⟨2, _⟩ => show o.val * 4 + kh.val = o.val * 4 + kh.val - 0; omega
      | ⟨3, _⟩ => show p.val * 4 + kw.val = p.val * 4 + kw.val - 0; omega
    · rename_i hno
      refine absurd (fun a => ?_) hno
      match a with
      | ⟨0, _⟩ => show 0 ≤ b.val * 1 + 0 ∧ b.val * 1 + 0 - 0 < 16; omega
      | ⟨1, _⟩ => show 0 ≤ c.val * 1 + 0 ∧ c.val * 1 + 0 - 0 < 64; omega
      | ⟨2, _⟩ => show 0 ≤ o.val * 4 + kh.val ∧ o.val * 4 + kh.val - 0 < 96; omega
      | ⟨3, _⟩ => show 0 ≤ p.val * 4 + kw.val ∧ p.val * 4 + kw.val - 0 < 96; omega
  · intro hK n
    obtain ⟨w, rfl⟩ : ∃ w : (⟨4, ![1, 1, 4, 4]⟩ : Shape).Idx, n = (⟨4, ![1, 1, 4, 4]⟩ : Shape).rowMajor w := ⟨(⟨4, ![1, 1, 4, 4]⟩ : Shape).rowMajor.symm n, (Equiv.apply_symm_apply _ _).symm⟩
    simp only [Equiv.symm_apply_apply]
    have h0 : (w 0).val < 1 := (w 0).isLt
    have h1 : (w 1).val < 1 := (w 1).isLt
    split
    · refine le_of_eq_of_le (congrArg X (funext fun a => Fin.ext ?_)) (hK (w 3) (w 2))
      match a with
      | ⟨0, _⟩ => show b.val * 1 + (w 0).val - 0 = b.val; omega
      | ⟨1, _⟩ => show c.val * 1 + (w 1).val - 0 = c.val; omega
      | ⟨2, _⟩ => show o.val * 4 + (w 2).val - 0 = o.val * 4 + (w 2).val; omega
      | ⟨3, _⟩ => show p.val * 4 + (w 3).val - 0 = p.val * 4 + (w 3).val; omega
    · exact bot_le

/-- A [16, 64, 24, 24] array repeated 4 times along the channels — reshaped to rank 8 with unit axes, broadcast along
    the new axis of extent 4, reshaped to [16, 256, 24, 24] — read at channel `ch`: the array at channel `ch mod 64`
    (the row-major position of `(b, ch, y, x)` is that of `(b, ch / 64, ch mod 64, y, x)`). -/
theorem tiled1 (Y : (⟨4, ![16, 64, 24, 24]⟩ : Shape).Idx → EReal) (h1 : (⟨4, ![16, 64, 24, 24]⟩ : Shape).ShapeCasts (⟨8, ![1, 16, 1, 64, 1, 24, 1, 24]⟩ : Shape))
    (h2 : (⟨8, ![1, 16, 1, 64, 1, 24, 1, 24]⟩ : Shape).BroadcastsInDim (⟨8, ![1, 16, 4, 64, 1, 24, 1, 24]⟩ : Shape) (![0, 1, 2, 3, 4, 5, 6, 7] : Fin 8 → Fin 8))
    (h3 : (⟨8, ![1, 16, 4, 64, 1, 24, 1, 24]⟩ : Shape).ShapeCasts (⟨4, ![16, 256, 24, 24]⟩ : Shape)) (b : Fin 16) (ch : Fin 256) (y x : Fin 24) :
    shapeCast (⟨4, ![16, 256, 24, 24]⟩ : Shape) (broadcastInDim (⟨8, ![1, 16, 4, 64, 1, 24, 1, 24]⟩ : Shape) ![0, 1, 2, 3, 4, 5, 6, 7] h2 (shapeCast (⟨8, ![1, 16, 1, 64, 1, 24, 1, 24]⟩ : Shape) Y h1)) h3
        (ix4 b ch y x)
      = Y (ix4 b (⟨ch.val % 64, Nat.mod_lt _ (by decide)⟩ : Fin 64) y x) := by
  have hch : ch.val < 256 := ch.isLt
  refine (shapeCast_apply _ _ (ix4 b ch y x)
    (ix8 (0 : Fin 1) b (⟨ch.val / 64, by omega⟩ : Fin 4) (⟨ch.val % 64, Nat.mod_lt _ (by decide)⟩ : Fin 64) (0 : Fin 1) y (0 : Fin 1) x) ?_).trans ?_
  · rw [rowMajor_val_eight, Shape.rowMajor_val_four]
    show ((((((0 * 16 + b.val) * 4 + ch.val / 64) * 64 + ch.val % 64) * 1 + 0) * 24 + y.val) * 1 + 0) * 24 + x.val
      = ((b.val * 256 + ch.val) * 24 + y.val) * 24 + x.val
    omega
  refine (broadcastInDim_apply _ _ _ (ix8 (0 : Fin 1) b (⟨ch.val / 64, by omega⟩ : Fin 4) (⟨ch.val % 64, Nat.mod_lt _ (by decide)⟩ : Fin 64) (0 : Fin 1) y (0 : Fin 1) x)
    (ix8 (0 : Fin 1) b (0 : Fin 1) (⟨ch.val % 64, Nat.mod_lt _ (by decide)⟩ : Fin 64) (0 : Fin 1) y (0 : Fin 1) x) ?_).trans ?_
  · intro a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
  refine shapeCast_apply _ _ (ix8 (0 : Fin 1) b (0 : Fin 1) (⟨ch.val % 64, Nat.mod_lt _ (by decide)⟩ : Fin 64) (0 : Fin 1) y (0 : Fin 1) x) (ix4 b (⟨ch.val % 64, Nat.mod_lt _ (by decide)⟩ : Fin 64) y x) ?_
  rw [Shape.rowMajor_val_four, rowMajor_val_eight]
  show ((b.val * 64 + ch.val % 64) * 24 + y.val) * 24 + x.val
    = ((((((0 * 16 + b.val) * 1 + 0) * 64 + ch.val % 64) * 1 + 0) * 24 + y.val) * 1 + 0) * 24 + x.val
  omega

/-! ## The 8×8 window of a [16, 32, 192, 192] array -/

/-- The host's window reduction with `maximumf` from an initial value that is the bottom — windows 8×8 on the two
    image axes, strides equal to the windows, no padding —, read at `(b, c, o, p)`: the supremum of the window. Both
    sides have the same upper bounds: a left fold of `max` from the bottom lies under `C` exactly when every value it
    meets does, and the positions of the window are the pairs `(kh, kw)`. -/
theorem reduceWindow_max2 (X : (⟨4, ![16, 32, 192, 192]⟩ : Shape).Idx → EReal) (v : (⟨0, ![]⟩ : Shape).Idx → EReal) (hv : ∀ u, v u = ⊥)
    (h : (⟨4, ![16, 32, 192, 192]⟩ : Shape).ReduceWindows (![1, 1, 8, 8] : Fin 4 → Nat) ![1, 1, 8, 8] ![0, 0, 0, 0] ![0, 0, 0, 0] (⟨4, ![16, 32, 24, 24]⟩ : Shape))
    (hu : 0 < (⟨0, ![]⟩ : Shape).numel) (b : Fin 16) (c : Fin 32) (o p : Fin 24) :
    Host.reduceWindow (FloatOps.maximumf (F := Ideal) (φ := .f32)) ![1, 1, 8, 8] ![1, 1, 8, 8] ![0, 0, 0, 0] ![0, 0, 0, 0]
        X v h hu (ix4 b c o p)
      = Spec.windowMaxAt2 X b c o p := by
  unfold Host.reduceWindow Spec.windowMaxAt2
  dsimp only
  rw [hv]
  refine eq_of_forall_ge_iff fun C => ?_
  refine (foldl_max_le_iff _ C _ _).trans ?_
  simp only [bot_le, true_and, List.mem_finRange, forall_true_left, iSup_le_iff]
  constructor
  · intro hN kw kh
    have hn := hN ((⟨4, ![1, 1, 8, 8]⟩ : Shape).rowMajor (ix4 (0 : Fin 1) (0 : Fin 1) kh kw))
    simp only [Equiv.symm_apply_apply] at hn
    split at hn
    · refine le_of_eq_of_le (congrArg X (funext fun a => Fin.ext ?_)) hn
      match a with
      | ⟨0, _⟩ => show b.val = b.val * 1 + 0 - 0; omega
      | ⟨1, _⟩ => show c.val = c.val * 1 + 0 - 0; omega
      | ⟨2, _⟩ => show o.val * 8 + kh.val = o.val * 8 + kh.val - 0; omega
      | ⟨3, _⟩ => show p.val * 8 + kw.val = p.val * 8 + kw.val - 0; omega
    · rename_i hno
      refine absurd (fun a => ?_) hno
      match a with
      | ⟨0, _⟩ => show 0 ≤ b.val * 1 + 0 ∧ b.val * 1 + 0 - 0 < 16; omega
      | ⟨1, _⟩ => show 0 ≤ c.val * 1 + 0 ∧ c.val * 1 + 0 - 0 < 32; omega
      | ⟨2, _⟩ => show 0 ≤ o.val * 8 + kh.val ∧ o.val * 8 + kh.val - 0 < 192; omega
      | ⟨3, _⟩ => show 0 ≤ p.val * 8 + kw.val ∧ p.val * 8 + kw.val - 0 < 192; omega
  · intro hK n
    obtain ⟨w, rfl⟩ : ∃ w : (⟨4, ![1, 1, 8, 8]⟩ : Shape).Idx, n = (⟨4, ![1, 1, 8, 8]⟩ : Shape).rowMajor w := ⟨(⟨4, ![1, 1, 8, 8]⟩ : Shape).rowMajor.symm n, (Equiv.apply_symm_apply _ _).symm⟩
    simp only [Equiv.symm_apply_apply]
    have h0 : (w 0).val < 1 := (w 0).isLt
    have h1 : (w 1).val < 1 := (w 1).isLt
    split
    · refine le_of_eq_of_le (congrArg X (funext fun a => Fin.ext ?_)) (hK (w 3) (w 2))
      match a with
      | ⟨0, _⟩ => show b.val * 1 + (w 0).val - 0 = b.val; omega
      | ⟨1, _⟩ => show c.val * 1 + (w 1).val - 0 = c.val; omega
      | ⟨2, _⟩ => show o.val * 8 + (w 2).val - 0 = o.val * 8 + (w 2).val; omega
      | ⟨3, _⟩ => show p.val * 8 + (w 3).val - 0 = p.val * 8 + (w 3).val; omega
    · exact bot_le

/-- A [16, 32, 24, 24] array repeated 8 times along the channels — reshaped to rank 8 with unit axes, broadcast along
    the new axis of extent 8, reshaped to [16, 256, 24, 24] — read at channel `ch`: the array at channel `ch mod 32`
    (the row-major position of `(b, ch, y, x)` is that of `(b, ch / 32, ch mod 32, y, x)`). -/
theorem tiled2 (Y : (⟨4, ![16, 32, 24, 24]⟩ : Shape).Idx → EReal) (h1 : (⟨4, ![16, 32, 24, 24]⟩ : Shape).ShapeCasts (⟨8, ![1, 16, 1, 32, 1, 24, 1, 24]⟩ : Shape))
    (h2 : (⟨8, ![1, 16, 1, 32, 1, 24, 1, 24]⟩ : Shape).BroadcastsInDim (⟨8, ![1, 16, 8, 32, 1, 24, 1, 24]⟩ : Shape) (![0, 1, 2, 3, 4, 5, 6, 7] : Fin 8 → Fin 8))
    (h3 : (⟨8, ![1, 16, 8, 32, 1, 24, 1, 24]⟩ : Shape).ShapeCasts (⟨4, ![16, 256, 24, 24]⟩ : Shape)) (b : Fin 16) (ch : Fin 256) (y x : Fin 24) :
    shapeCast (⟨4, ![16, 256, 24, 24]⟩ : Shape) (broadcastInDim (⟨8, ![1, 16, 8, 32, 1, 24, 1, 24]⟩ : Shape) ![0, 1, 2, 3, 4, 5, 6, 7] h2 (shapeCast (⟨8, ![1, 16, 1, 32, 1, 24, 1, 24]⟩ : Shape) Y h1)) h3
        (ix4 b ch y x)
      = Y (ix4 b (⟨ch.val % 32, Nat.mod_lt _ (by decide)⟩ : Fin 32) y x) := by
  have hch : ch.val < 256 := ch.isLt
  refine (shapeCast_apply _ _ (ix4 b ch y x)
    (ix8 (0 : Fin 1) b (⟨ch.val / 32, by omega⟩ : Fin 8) (⟨ch.val % 32, Nat.mod_lt _ (by decide)⟩ : Fin 32) (0 : Fin 1) y (0 : Fin 1) x) ?_).trans ?_
  · rw [rowMajor_val_eight, Shape.rowMajor_val_four]
    show ((((((0 * 16 + b.val) * 8 + ch.val / 32) * 32 + ch.val % 32) * 1 + 0) * 24 + y.val) * 1 + 0) * 24 + x.val
      = ((b.val * 256 + ch.val) * 24 + y.val) * 24 + x.val
    omega
  refine (broadcastInDim_apply _ _ _ (ix8 (0 : Fin 1) b (⟨ch.val / 32, by omega⟩ : Fin 8) (⟨ch.val % 32, Nat.mod_lt _ (by decide)⟩ : Fin 32) (0 : Fin 1) y (0 : Fin 1) x)
    (ix8 (0 : Fin 1) b (0 : Fin 1) (⟨ch.val % 32, Nat.mod_lt _ (by decide)⟩ : Fin 32) (0 : Fin 1) y (0 : Fin 1) x) ?_).trans ?_
  · intro a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
  refine shapeCast_apply _ _ (ix8 (0 : Fin 1) b (0 : Fin 1) (⟨ch.val % 32, Nat.mod_lt _ (by decide)⟩ : Fin 32) (0 : Fin 1) y (0 : Fin 1) x) (ix4 b (⟨ch.val % 32, Nat.mod_lt _ (by decide)⟩ : Fin 32) y x) ?_
  rw [Shape.rowMajor_val_four, rowMajor_val_eight]
  show ((b.val * 32 + ch.val % 32) * 24 + y.val) * 24 + x.val
    = ((((((0 * 16 + b.val) * 1 + 0) * 32 + ch.val % 32) * 1 + 0) * 24 + y.val) * 1 + 0) * 24 + x.val
  omega

/-! ## The 16×16 window of a [16, 16, 384, 384] array -/

/-- The host's window reduction with `maximumf` from an initial value that is the bottom — windows 16×16 on the two
    image axes, strides equal to the windows, no padding —, read at `(b, c, o, p)`: the supremum of the window. Both
    sides have the same upper bounds: a left fold of `max` from the bottom lies under `C` exactly when every value it
    meets does, and the positions of the window are the pairs `(kh, kw)`. -/
theorem reduceWindow_max3 (X : (⟨4, ![16, 16, 384, 384]⟩ : Shape).Idx → EReal) (v : (⟨0, ![]⟩ : Shape).Idx → EReal) (hv : ∀ u, v u = ⊥)
    (h : (⟨4, ![16, 16, 384, 384]⟩ : Shape).ReduceWindows (![1, 1, 16, 16] : Fin 4 → Nat) ![1, 1, 16, 16] ![0, 0, 0, 0] ![0, 0, 0, 0] (⟨4, ![16, 16, 24, 24]⟩ : Shape))
    (hu : 0 < (⟨0, ![]⟩ : Shape).numel) (b : Fin 16) (c : Fin 16) (o p : Fin 24) :
    Host.reduceWindow (FloatOps.maximumf (F := Ideal) (φ := .f32)) ![1, 1, 16, 16] ![1, 1, 16, 16] ![0, 0, 0, 0] ![0, 0, 0, 0]
        X v h hu (ix4 b c o p)
      = Spec.windowMaxAt3 X b c o p := by
  unfold Host.reduceWindow Spec.windowMaxAt3
  dsimp only
  rw [hv]
  refine eq_of_forall_ge_iff fun C => ?_
  refine (foldl_max_le_iff _ C _ _).trans ?_
  simp only [bot_le, true_and, List.mem_finRange, forall_true_left, iSup_le_iff]
  constructor
  · intro hN kw kh
    have hn := hN ((⟨4, ![1, 1, 16, 16]⟩ : Shape).rowMajor (ix4 (0 : Fin 1) (0 : Fin 1) kh kw))
    simp only [Equiv.symm_apply_apply] at hn
    split at hn
    · refine le_of_eq_of_le (congrArg X (funext fun a => Fin.ext ?_)) hn
      match a with
      | ⟨0, _⟩ => show b.val = b.val * 1 + 0 - 0; omega
      | ⟨1, _⟩ => show c.val = c.val * 1 + 0 - 0; omega
      | ⟨2, _⟩ => show o.val * 16 + kh.val = o.val * 16 + kh.val - 0; omega
      | ⟨3, _⟩ => show p.val * 16 + kw.val = p.val * 16 + kw.val - 0; omega
    · rename_i hno
      refine absurd (fun a => ?_) hno
      match a with
      | ⟨0, _⟩ => show 0 ≤ b.val * 1 + 0 ∧ b.val * 1 + 0 - 0 < 16; omega
      | ⟨1, _⟩ => show 0 ≤ c.val * 1 + 0 ∧ c.val * 1 + 0 - 0 < 16; omega
      | ⟨2, _⟩ => show 0 ≤ o.val * 16 + kh.val ∧ o.val * 16 + kh.val - 0 < 384; omega
      | ⟨3, _⟩ => show 0 ≤ p.val * 16 + kw.val ∧ p.val * 16 + kw.val - 0 < 384; omega
  · intro hK n
    obtain ⟨w, rfl⟩ : ∃ w : (⟨4, ![1, 1, 16, 16]⟩ : Shape).Idx, n = (⟨4, ![1, 1, 16, 16]⟩ : Shape).rowMajor w := ⟨(⟨4, ![1, 1, 16, 16]⟩ : Shape).rowMajor.symm n, (Equiv.apply_symm_apply _ _).symm⟩
    simp only [Equiv.symm_apply_apply]
    have h0 : (w 0).val < 1 := (w 0).isLt
    have h1 : (w 1).val < 1 := (w 1).isLt
    split
    · refine le_of_eq_of_le (congrArg X (funext fun a => Fin.ext ?_)) (hK (w 3) (w 2))
      match a with
      | ⟨0, _⟩ => show b.val * 1 + (w 0).val - 0 = b.val; omega
      | ⟨1, _⟩ => show c.val * 1 + (w 1).val - 0 = c.val; omega
      | ⟨2, _⟩ => show o.val * 16 + (w 2).val - 0 = o.val * 16 + (w 2).val; omega
      | ⟨3, _⟩ => show p.val * 16 + (w 3).val - 0 = p.val * 16 + (w 3).val; omega
    · exact bot_le

/-- A [16, 16, 24, 24] array repeated 16 times along the channels — reshaped to rank 8 with unit axes, broadcast along
    the new axis of extent 16, reshaped to [16, 256, 24, 24] — read at channel `ch`: the array at channel `ch mod 16`
    (the row-major position of `(b, ch, y, x)` is that of `(b, ch / 16, ch mod 16, y, x)`). -/
theorem tiled3 (Y : (⟨4, ![16, 16, 24, 24]⟩ : Shape).Idx → EReal) (h1 : (⟨4, ![16, 16, 24, 24]⟩ : Shape).ShapeCasts (⟨8, ![1, 16, 1, 16, 1, 24, 1, 24]⟩ : Shape))
    (h2 : (⟨8, ![1, 16, 1, 16, 1, 24, 1, 24]⟩ : Shape).BroadcastsInDim (⟨8, ![1, 16, 16, 16, 1, 24, 1, 24]⟩ : Shape) (![0, 1, 2, 3, 4, 5, 6, 7] : Fin 8 → Fin 8))
    (h3 : (⟨8, ![1, 16, 16, 16, 1, 24, 1, 24]⟩ : Shape).ShapeCasts (⟨4, ![16, 256, 24, 24]⟩ : Shape)) (b : Fin 16) (ch : Fin 256) (y x : Fin 24) :
    shapeCast (⟨4, ![16, 256, 24, 24]⟩ : Shape) (broadcastInDim (⟨8, ![1, 16, 16, 16, 1, 24, 1, 24]⟩ : Shape) ![0, 1, 2, 3, 4, 5, 6, 7] h2 (shapeCast (⟨8, ![1, 16, 1, 16, 1, 24, 1, 24]⟩ : Shape) Y h1)) h3
        (ix4 b ch y x)
      = Y (ix4 b (⟨ch.val % 16, Nat.mod_lt _ (by decide)⟩ : Fin 16) y x) := by
  have hch : ch.val < 256 := ch.isLt
  refine (shapeCast_apply _ _ (ix4 b ch y x)
    (ix8 (0 : Fin 1) b (⟨ch.val / 16, by omega⟩ : Fin 16) (⟨ch.val % 16, Nat.mod_lt _ (by decide)⟩ : Fin 16) (0 : Fin 1) y (0 : Fin 1) x) ?_).trans ?_
  · rw [rowMajor_val_eight, Shape.rowMajor_val_four]
    show ((((((0 * 16 + b.val) * 16 + ch.val / 16) * 16 + ch.val % 16) * 1 + 0) * 24 + y.val) * 1 + 0) * 24 + x.val
      = ((b.val * 256 + ch.val) * 24 + y.val) * 24 + x.val
    omega
  refine (broadcastInDim_apply _ _ _ (ix8 (0 : Fin 1) b (⟨ch.val / 16, by omega⟩ : Fin 16) (⟨ch.val % 16, Nat.mod_lt _ (by decide)⟩ : Fin 16) (0 : Fin 1) y (0 : Fin 1) x)
    (ix8 (0 : Fin 1) b (0 : Fin 1) (⟨ch.val % 16, Nat.mod_lt _ (by decide)⟩ : Fin 16) (0 : Fin 1) y (0 : Fin 1) x) ?_).trans ?_
  · intro a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
  refine shapeCast_apply _ _ (ix8 (0 : Fin 1) b (0 : Fin 1) (⟨ch.val % 16, Nat.mod_lt _ (by decide)⟩ : Fin 16) (0 : Fin 1) y (0 : Fin 1) x) (ix4 b (⟨ch.val % 16, Nat.mod_lt _ (by decide)⟩ : Fin 16) y x) ?_
  rw [Shape.rowMajor_val_four, rowMajor_val_eight]
  show ((b.val * 16 + ch.val % 16) * 24 + y.val) * 24 + x.val
    = ((((((0 * 16 + b.val) * 1 + 0) * 16 + ch.val % 16) * 1 + 0) * 24 + y.val) * 1 + 0) * 24 + x.val
  omega

end Cert.RefPool

end
-- ==== Proof.RefValue.lean ====
/-
  The reference's result is the specification.

  Stage by stage: each input is pooled by a window reduction from minus infinity (the supremum of the window), the pooled
  array is repeated along the channels (channel ch reads channel ch mod C), the four repeated arrays and the
  feed-forward term are added, and the maximum with a splat of zero is taken. The sum is taken in the order
  ((((t1 + t2) + t3) + t4) + ff) where the specification has ((((ff + t1) + t2) + t3) + t4): addition of extended reals is
  commutative and associative, so the two agree whatever the values — no finiteness is used.
-/
import proofs.«171771_j88167088652743_2_alg».proof.Proof.Gen.ReferenceIdeal.Read
import proofs.«171771_j88167088652743_2_alg».proof.Proof.Spec
import proofs.«171771_j88167088652743_2_alg».proof.Proof.LibMaxFold
import proofs.«171771_j88167088652743_2_alg».proof.Proof.RefPool
import Idealize.ShloMosaic.Lib.ValueIdx

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open Cert.LibMaxFold

/-- The initial value of window reduction 0 is minus infinity, the bottom. -/
theorem init0 (u : S_.Idx) : val_main_v0 (F := Ideal) u = (⊥ : EReal) := by
  rw [val_main_v0_apply, val_main_cst_apply]
  exact ofBits_neg_inf

/-- The repeated pooled array 0 at `(b, ch, y, x)`: the supremum of the window of input 0 at channel `ch mod 128`. -/
theorem pooled0 (x0 : (⟨S16x128x48x48, .f32⟩ : BufTy).Contents (Elt Ideal)) (b : Fin 16) (ch : Fin 256) (y x : Fin 24) :
    val_main_v4 (F := Ideal) x0 (ix4 b ch y x) = Spec.windowMaxAt0 x0 b (⟨ch.val % 128, Nat.mod_lt _ (by decide)⟩ : Fin 128) y x := by
  unfold val_main_v4 val_main_v3 val_main_v2
  refine (RefPool.tiled0 _ _ _ _ b ch y x).trans ?_
  unfold val_main_v1
  exact RefPool.reduceWindow_max0 x0 _ init0 _ _ b (⟨ch.val % 128, Nat.mod_lt _ (by decide)⟩ : Fin 128) y x

/-- The initial value of window reduction 1 is minus infinity, the bottom. -/
theorem init1 (u : S_.Idx) : val_main_v5 (F := Ideal) u = (⊥ : EReal) := by
  rw [val_main_v5_apply, val_main_cst_0_apply]
  exact ofBits_neg_inf

/-- The repeated pooled array 1 at `(b, ch, y, x)`: the supremum of the window of input 1 at channel `ch mod 64`. -/
theorem pooled1 (x1 : (⟨S16x64x96x96, .f32⟩ : BufTy).Contents (Elt Ideal)) (b : Fin 16) (ch : Fin 256) (y x : Fin 24) :
    val_main_v9 (F := Ideal) x1 (ix4 b ch y x) = Spec.windowMaxAt1 x1 b (⟨ch.val % 64, Nat.mod_lt _ (by decide)⟩ : Fin 64) y x := by
  unfold val_main_v9 val_main_v8 val_main_v7
  refine (RefPool.tiled1 _ _ _ _ b ch y x).trans ?_
  unfold val_main_v6
  exact RefPool.reduceWindow_max1 x1 _ init1 _ _ b (⟨ch.val % 64, Nat.mod_lt _ (by decide)⟩ : Fin 64) y x

/-- The initial value of window reduction 2 is minus infinity, the bottom. -/
theorem init2 (u : S_.Idx) : val_main_v10 (F := Ideal) u = (⊥ : EReal) := by
  rw [val_main_v10_apply, val_main_cst_1_apply]
  exact ofBits_neg_inf

/-- The repeated pooled array 2 at `(b, ch, y, x)`: the supremum of the window of input 2 at channel `ch mod 32`. -/
theorem pooled2 (x2 : (⟨S16x32x192x192, .f32⟩ : BufTy).Contents (Elt Ideal)) (b : Fin 16) (ch : Fin 256) (y x : Fin 24) :
    val_main_v14 (F := Ideal) x2 (ix4 b ch y x) = Spec.windowMaxAt2 x2 b (⟨ch.val % 32, Nat.mod_lt _ (by decide)⟩ : Fin 32) y x := by
  unfold val_main_v14 val_main_v13 val_main_v12
  refine (RefPool.tiled2 _ _ _ _ b ch y x).trans ?_
  unfold val_main_v11
  exact RefPool.reduceWindow_max2 x2 _ init2 _ _ b (⟨ch.val % 32, Nat.mod_lt _ (by decide)⟩ : Fin 32) y x

/-- The initial value of window reduction 3 is minus infinity, the bottom. -/
theorem init3 (u : S_.Idx) : val_main_v15 (F := Ideal) u = (⊥ : EReal) := by
  rw [val_main_v15_apply, val_main_cst_2_apply]
  exact ofBits_neg_inf

/-- The repeated pooled array 3 at `(b, ch, y, x)`: the supremum of the window of input 3 at channel `ch mod 16`. -/
theorem pooled3 (x3 : (⟨S16x16x384x384, .f32⟩ : BufTy).Contents (Elt Ideal)) (b : Fin 16) (ch : Fin 256) (y x : Fin 24) :
    val_main_v19 (F := Ideal) x3 (ix4 b ch y x) = Spec.windowMaxAt3 x3 b (⟨ch.val % 16, Nat.mod_lt _ (by decide)⟩ : Fin 16) y x := by
  unfold val_main_v19 val_main_v18 val_main_v17
  refine (RefPool.tiled3 _ _ _ _ b ch y x).trans ?_
  unfold val_main_v16
  exact RefPool.reduceWindow_max3 x3 _ init3 _ _ b (⟨ch.val % 16, Nat.mod_lt _ (by decide)⟩ : Fin 16) y x

/-- The splat the maximum is taken with is the zero word. -/
theorem zero_splat (i : S16x256x24x24.Idx) : val_main_call0_v0 (F := Ideal) i = Ideal.ofBits .f32 0x00000000#32 := by
  rw [val_main_call0_v0_apply, val_main_call0_cst_apply]
  rfl

/-- The reference's result, as a function of its five argument arrays, is the specification's result array. -/
theorem value_eq (x0 : (⟨S16x128x48x48, .f32⟩ : BufTy).Contents (Elt Ideal)) (x1 : (⟨S16x64x96x96, .f32⟩ : BufTy).Contents (Elt Ideal)) (x2 : (⟨S16x32x192x192, .f32⟩ : BufTy).Contents (Elt Ideal)) (x3 : (⟨S16x16x384x384, .f32⟩ : BufTy).Contents (Elt Ideal))
    (x4 : (⟨S16x256x24x24, .f32⟩ : BufTy).Contents (Elt Ideal)) :
    val_main_v24 (F := Ideal) x0 x1 x2 x3 x4
      = Spec.combine (Spec.windowMax0 x0) (Spec.windowMax1 x1) (Spec.windowMax2 x2) (Spec.windowMax3 x3) x4 := by
  funext i
  obtain ⟨b, ch, y, x, rfl⟩ : ∃ (b : Fin 16) (ch : Fin 256) (y x : Fin 24), i = ix4 b ch y x := ⟨i 0, i 1, i 2, i 3, eq_ix4 i⟩
  rw [val_main_v24_apply, val_main_v23_apply, val_main_v22_apply, val_main_v21_apply, val_main_v20_apply,
    pooled0, pooled1, pooled2, pooled3, zero_splat]
  show max ((((Spec.windowMaxAt0 x0 b (⟨ch.val % 128, Nat.mod_lt _ (by decide)⟩ : Fin 128) y x + Spec.windowMaxAt1 x1 b (⟨ch.val % 64, Nat.mod_lt _ (by decide)⟩ : Fin 64) y x)
        + Spec.windowMaxAt2 x2 b (⟨ch.val % 32, Nat.mod_lt _ (by decide)⟩ : Fin 32) y x) + Spec.windowMaxAt3 x3 b (⟨ch.val % 16, Nat.mod_lt _ (by decide)⟩ : Fin 16) y x) + x4 (ix4 b ch y x))
      (Ideal.ofBits .f32 0x00000000#32)
    = max ((((x4 (ix4 b ch y x) + Spec.windowMaxAt0 x0 b (⟨ch.val % 128, Nat.mod_lt _ (by decide)⟩ : Fin 128) y x) + Spec.windowMaxAt1 x1 b (⟨ch.val % 64, Nat.mod_lt _ (by decide)⟩ : Fin 64) y x)
        + Spec.windowMaxAt2 x2 b (⟨ch.val % 32, Nat.mod_lt _ (by decide)⟩ : Fin 32) y x) + Spec.windowMaxAt3 x3 b (⟨ch.val % 16, Nat.mod_lt _ (by decide)⟩ : Fin 16) y x)
      (Ideal.ofBits .f32 0x00000000#32)
  refine congrArg (fun t : EReal => max t (Ideal.ofBits .f32 0x00000000#32)) ?_
  generalize Spec.windowMaxAt0 x0 b (⟨ch.val % 128, Nat.mod_lt _ (by decide)⟩ : Fin 128) y x = t1
  generalize Spec.windowMaxAt1 x1 b (⟨ch.val % 64, Nat.mod_lt _ (by decide)⟩ : Fin 64) y x = t2
  generalize Spec.windowMaxAt2 x2 b (⟨ch.val % 32, Nat.mod_lt _ (by decide)⟩ : Fin 32) y x = t3
  generalize Spec.windowMaxAt3 x3 b (⟨ch.val % 16, Nat.mod_lt _ (by decide)⟩ : Fin 16) y x = t4
  generalize x4 (ix4 b ch y x) = ff
  show (((t1 + t2) + t3) + t4) + ff = (((ff + t1) + t2) + t3) + t4
  ac_rfl

end Cert.ReferenceIdeal.RefValue

end
-- ==== Proof.lean ====
/-
  The certificate's claims.

  The kernel is five regions: four poolings and one combination. The k×k window maximum is taken in two stages
  (rows, then columns) by the kernel and in one window reduction by the reference; both are the supremum of the window.
  The repeated pooled arrays and the feed-forward term are added in different orders by the two programs, and the
  extended reals' addition is commutative and associative. So the two results are one array for ANY extended-real
  inputs: the precondition (finite inputs) is not used by the value claim.

  The three frame claims are the generated frames (the reference's is its generated run with the result dropped); the
  idealization rewrote nothing, so its claim is trivial; the value claim sets the kernel's run, its result named
  (KernelRun), beside the reference's run read stage by stage (RefValue), both at the specification (Spec).
-/
import proofs.«171771_j88167088652743_2_alg».proof.Defs
import proofs.«171771_j88167088652743_2_alg».proof.Proof.Gen.Kernel
import proofs.«171771_j88167088652743_2_alg».proof.Proof.Gen.Kernel.Skeleton
import proofs.«171771_j88167088652743_2_alg».proof.Proof.Gen.Kernel.Launch
import proofs.«171771_j88167088652743_2_alg».proof.Proof.Gen.Kernel.Points
import proofs.«171771_j88167088652743_2_alg».proof.Proof.Gen.Kernel.Frame
import proofs.«171771_j88167088652743_2_alg».proof.Proof.Gen.KernelIdeal
import proofs.«171771_j88167088652743_2_alg».proof.Proof.Gen.KernelIdeal.Skeleton
import proofs.«171771_j88167088652743_2_alg».proof.Proof.Gen.KernelIdeal.Launch
import proofs.«171771_j88167088652743_2_alg».proof.Proof.Gen.KernelIdeal.Points
import proofs.«171771_j88167088652743_2_alg».proof.Proof.Gen.KernelIdeal.Frame
import proofs.«171771_j88167088652743_2_alg».proof.Proof.Gen.ReferenceIdeal
import proofs.«171771_j88167088652743_2_alg».proof.Proof.Gen.Pre_finite_inputs
import proofs.«171771_j88167088652743_2_alg».proof.Proof.Gen.ReferenceIdeal.Run
import proofs.«171771_j88167088652743_2_alg».proof.Proof.Gen.ReferenceIdeal.Read
import proofs.«171771_j88167088652743_2_alg».proof.Proof.KernelRun
import proofs.«171771_j88167088652743_2_alg».proof.Proof.RefValue
import Idealize.ShloMosaic.Adequacy
import Idealize.ShloMosaic.Init

noncomputable section

namespace Cert.Proof

open Idealize.ShloMosaic Idealize.SL.Sem

/-- The kernel as printed runs and leaves its inputs unchanged: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its inputs unchanged: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the five inputs both programs end with the result buffer at the specification's array of
    those inputs: the kernel by its run, the reference by its run read stage by stage. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.value_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
